-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x1 .f32) (main_arg9 : FVec F S1 .f32) (main_arg10 : FVec F S64x1 .f32) (main_arg11 : FVec F S1 .f32) (main_arg12 : FVec F S64x1 .f32) (main_arg13 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_v48 main_v49 main_v50

def fn_part1 {F : FTy → Type} [FloatOps F] (main_arg5 : FVec F S64 .f32) (main_arg6 : FVec F S256x64 .f32) (main_arg7 : FVec F S64 .f32) (main_arg8 : FVec F S64x1 .f32) (main_arg9 : FVec F S1 .f32) (main_arg10 : FVec F S64x1 .f32) (main_arg11 : FVec F S1 .f32) (main_arg12 : FVec F S64x1 .f32) (main_arg13 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x256 .f32) (main_arg1 : IVec S2x1600000 32) (main_arg2 : FVec F S256x64 .f32) (main_arg3 : FVec F S64 .f32) (main_arg4 : FVec F S256x64 .f32) (main_arg5 : FVec F S64 .f32) (main_arg6 : FVec F S256x64 .f32) (main_arg7 : FVec F S64 .f32) (main_arg8 : FVec F S64x1 .f32) (main_arg9 : FVec F S1 .f32) (main_arg10 : FVec F S64x1 .f32) (main_arg11 : FVec F S1 .f32) (main_arg12 : FVec F S64x1 .f32) (main_arg13 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_arg10 main_arg11 main_arg12 main_arg13 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x1 : Shape := ⟨2, ![1, 1]⟩
abbrev S5000 : Shape := ⟨1, ![5000]⟩
abbrev S5000x1 : Shape := ⟨2, ![5000, 1]⟩

abbrev nBuf : Space → Nat
  | .hbm => 102
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S256x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S64x1, .f32⟩
  | .hbm, ⟨11, _⟩ => ⟨S1, .f32⟩
  | .hbm, ⟨12, _⟩ => ⟨S64x1, .f32⟩
  | .hbm, ⟨13, _⟩ => ⟨S1, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S100000, .i32⟩
  | .hbm, ⟨21, _⟩ => ⟨S1x1600000, .i32⟩
  | .hbm, ⟨22, _⟩ => ⟨S1600000, .i32⟩
  | .hbm, ⟨23, _⟩ => ⟨S1700000, .i32⟩
  | .hbm, ⟨24, _⟩ => ⟨S1x1600000, .i32⟩
  | .hbm, ⟨25, _⟩ => ⟨S1600000, .i32⟩
  | .hbm, ⟨26, _⟩ => ⟨S1700000, .i32⟩
  | .hbm, ⟨27, _⟩ => ⟨S_, .f32⟩
  | .hbm, ⟨28, _⟩ => ⟨S1700000, .f32⟩
  | .hbm, ⟨29, _⟩ => ⟨S_, .f32⟩
  | .hbm, ⟨30, _⟩ => ⟨S100000, .f32⟩
  | .hbm, ⟨31, _⟩ => ⟨S1700000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000, .f32⟩
  | .hbm, ⟨62, _⟩ => ⟨S1700000, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x1, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x64, .f32⟩
  | .hbm, ⟨88, _⟩ => ⟨S1700000x1, .f32⟩
  | .hbm, ⟨89, _⟩ => ⟨S1700000x64, .f32⟩
  | .hbm, ⟨90, _⟩ => ⟨S1700000x64, .f32⟩
  | .hbm, ⟨91, _⟩ => ⟨S_, .f32⟩
  | .hbm, ⟨92, _⟩ => ⟨S100000x64, .f32⟩
  | .hbm, ⟨93, _⟩ => ⟨S1700000x1, .i32⟩
  | .hbm, ⟨94, _⟩ => ⟨S100000x64, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S1x1, .f32⟩
  | .hbm, ⟨99, _⟩ => ⟨S1x1, .f32⟩
  | .hbm, ⟨100, _⟩ => ⟨S1x1, .f32⟩
  | .hbm, ⟨101, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S256x64, .f32⟩
  | .local _ .vmem, ⟨5, _⟩ => ⟨S1x64, .f32⟩
  | .local _ .vmem, ⟨6, _⟩ => ⟨S256x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x1, .f32⟩
  | .local _ .vmem, ⟨24, _⟩ => ⟨S1x64, .f32⟩
  | .local _ .vmem, ⟨25, _⟩ => ⟨S1x1, .f32⟩
  | .local _ .vmem, ⟨26, _⟩ => ⟨S1x64, .f32⟩
  | .local _ .vmem, ⟨27, _⟩ => ⟨S1x1, .f32⟩
  | .local _ .vmem, ⟨28, _⟩ => ⟨S5000x64, .f32⟩
  | .local _ .vmem, ⟨29, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64x1_S1x64 : S64x1.ShapeCasts S1x64
  shapeCasts_S1_S1x1 : S1.ShapeCasts S1x1
  shapeCasts_S5000x64_S5000x64 : S5000x64.ShapeCasts S5000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S5000x64_S5000 : S5000x64.Reduces [1] S5000
  shapeCasts_S5000_S5000x1 : S5000.ShapeCasts S5000x1
  broadcasts_S1x1_S5000x1 : S1x1.Broadcasts S5000x1
  broadcasts_S5000x1_S5000x64 : S5000x1.Broadcasts S5000x64
  dot_S5000x256_S256x64_S5000x64_1_0_0_1_n_n_wf : DotDims.WF S5000x256 S256x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .f32 = 32 ∨ (Rect.block (s := S100000x64) S5000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_2) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v66) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v64) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v67) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v68) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S100000x1 : Shape := ⟨2, ![100000, 1]⟩
abbrev S1x1 : Shape := ⟨2, ![1, 1]⟩

abbrev nBuf : Space → Nat
  | .hbm => 176
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S256x64, .f32⟩
  | 5 => ⟨S64, .f32⟩
  | 6 => ⟨S256x64, .f32⟩
  | 7 => ⟨S64, .f32⟩
  | 8 => ⟨S64x1, .f32⟩
  | 9 => ⟨S1, .f32⟩
  | 10 => ⟨S64x1, .f32⟩
  | 11 => ⟨S1, .f32⟩
  | 12 => ⟨S64x1, .f32⟩
  | 13 => ⟨S1, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x64, .f32⟩
  | 58 => ⟨S1x64, .f32⟩
  | 59 => ⟨S100000x64, .f32⟩
  | 60 => ⟨S100000x64, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x64, .f32⟩
  | 70 => ⟨S1700000x1, .f32⟩
  | 71 => ⟨S1700000x64, .f32⟩
  | 72 => ⟨S1700000x64, .f32⟩
  | 73 => ⟨S_, .f32⟩
  | 74 => ⟨S100000x64, .f32⟩
  | 75 => ⟨S1700000x1, .i32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x64, .f32⟩
  | 94 => ⟨S1700000x1, .f32⟩
  | 95 => ⟨S1700000x64, .f32⟩
  | 96 => ⟨S1700000x64, .f32⟩
  | 97 => ⟨S_, .f32⟩
  | 98 => ⟨S100000x64, .f32⟩
  | 99 => ⟨S1700000x1, .i32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x1, .f32⟩
  | 112 => ⟨S1x1, .f32⟩
  | 113 => ⟨S100000x1, .f32⟩
  | 114 => ⟨S100000x1, .f32⟩
  | 115 => ⟨S100000x1, .f32⟩
  | 116 => ⟨S100000x1, .f32⟩
  | 117 => ⟨S_, .f32⟩
  | 118 => ⟨S100000x1, .f32⟩
  | 119 => ⟨S100000x1, .f32⟩
  | 120 => ⟨S_, .f32⟩
  | 121 => ⟨S100000x1, .f32⟩
  | 122 => ⟨S100000x1, .f32⟩
  | 123 => ⟨S100000, .f32⟩
  | 124 => ⟨S100000x1, .f32⟩
  | 125 => ⟨S1x1, .f32⟩
  | 126 => ⟨S100000x1, .f32⟩
  | 127 => ⟨S100000x1, .f32⟩
  | _ => ⟨S100000x256, .f32⟩

abbrev hbmTy0_1 (i : Nat) : BufTy := match i % 128 with
  | 0 => ⟨S100000x1, .f32⟩
  | 1 => ⟨S100000x1, .f32⟩
  | 2 => ⟨S_, .f32⟩
  | 3 => ⟨S100000x1, .f32⟩
  | 4 => ⟨S100000x1, .f32⟩
  | 5 => ⟨S_, .f32⟩
  | 6 => ⟨S100000x1, .f32⟩
  | 7 => ⟨S100000x1, .f32⟩
  | 8 => ⟨S100000, .f32⟩
  | 9 => ⟨S100000x1, .f32⟩
  | 10 => ⟨S1x1, .f32⟩
  | 11 => ⟨S100000x1, .f32⟩
  | 12 => ⟨S100000x1, .f32⟩
  | 13 => ⟨S100000x1, .f32⟩
  | 14 => ⟨S100000x1, .f32⟩
  | 15 => ⟨S_, .f32⟩
  | 16 => ⟨S100000x1, .f32⟩
  | 17 => ⟨S100000x1, .f32⟩
  | 18 => ⟨S_, .f32⟩
  | 19 => ⟨S100000x1, .f32⟩
  | 20 => ⟨S100000x1, .f32⟩
  | 21 => ⟨S100000, .f32⟩
  | 22 => ⟨S100000x1, .f32⟩
  | 23 => ⟨S100000x64, .f32⟩
  | 24 => ⟨S100000x64, .f32⟩
  | 25 => ⟨S100000x1, .f32⟩
  | 26 => ⟨S100000x64, .f32⟩
  | 27 => ⟨S100000x64, .f32⟩
  | 28 => ⟨S100000x64, .f32⟩
  | 29 => ⟨S100000x1, .f32⟩
  | 30 => ⟨S100000x64, .f32⟩
  | 31 => ⟨S100000x64, .f32⟩
  | 32 => ⟨S100000x64, .f32⟩
  | 33 => ⟨S_, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S100000x64, .f32⟩
  | 41 => ⟨S100000x64, .f32⟩
  | 42 => ⟨S_, .f32⟩
  | 43 => ⟨S100000, .f32⟩
  | 44 => ⟨S100000x1, .f32⟩
  | 45 => ⟨S100000x1, .f32⟩
  | 46 => ⟨S100000x64, .f32⟩
  | 47 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call1_cst : Ref sig .tc := ⟨.hbm, 78, rfl⟩
abbrev main_call1_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call2_cst : Ref sig .tc := ⟨.hbm, 101, rfl⟩
abbrev main_call2_v0 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call3_cst : Ref sig .tc := ⟨.hbm, 108, rfl⟩
abbrev main_call3_v0 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_13 : Ref sig .tc := ⟨.hbm, 117, rfl⟩
abbrev main_v80 : Ref sig .tc := ⟨.hbm, 118, rfl⟩
abbrev main_v81 : Ref sig .tc := ⟨.hbm, 119, rfl⟩
abbrev main_cst_14 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_15 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_17 : Ref sig .tc := ⟨.hbm, 143, rfl⟩
abbrev main_v102 : Ref sig .tc := ⟨.hbm, 144, rfl⟩
abbrev main_v103 : Ref sig .tc := ⟨.hbm, 145, rfl⟩
abbrev main_cst_18 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_call4_cst : Ref sig .tc := ⟨.hbm, 161, rfl⟩
abbrev main_call4_v0 : Ref sig .tc := ⟨.hbm, 162, rfl⟩
abbrev main_call4_cst_0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_v6 : Ref sig .tc := ⟨.hbm, 169, rfl⟩
abbrev main_call4_cst_1 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_v118 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S100000_d1 : S100000x64.ReducesTo [1] S100000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel's whole run with its result named.

  The program is two grid launches among stretches of host operations. Its memory at each boundary is a fold from
  the launch memory: a host stretch applies its operations, a launch leaves in each of its arrays what its grid
  points wrote back and every other buffer as it was. This module states the run with the RESULT buffer read at the
  end of that fold (the last launch's output array after all twenty row blocks are written back), beside the
  argument arrays ending as launched; the value of that fold is worked out elsewhere.
-/
import proofs.«110213_j52012053954566_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds the
    last boundary's contents at the result's reference, and each argument array is as launched. -/
theorem run_named : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

/-- The last boundary's contents at the result's reference: the second launch's output array once every grid
    point's block is written back. -/
theorem result_eq (c : Dev nD) :
    W6 m ρ c (Proc.devRef .tc main_v68) = (dat1 (V5 m ρ) c).arrAt 10 cfg1.N :=
  W6_arr m ρ c 10

end Cert.KernelIdeal.KernelRun

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.HostGlue.lean ====
/-
  What the arrays of the two regions hold when each region is entered.

  Before the first region the program only reshapes the three bias vectors into rows. Between the regions it
  propagates two of the first region's results over the graph: the edge list is cut into its row of sources and its
  row of targets, every node is appended to both (the self-loops), the degree of a node is the number of list
  entries whose target it is, an entry's weight is the product of the inverse square roots of its two endpoints'
  degrees (zero at a node of degree zero), and the propagated array adds, into each target's row, the source's row
  times the entry's weight. The three gate vectors and the three gate biases are reshaped into rows.

  The propagation is kept as one function of the edge list and of the array it propagates: the program applies the
  same function to two arrays, and nothing here looks inside it.
-/
import proofs.«110213_j52012053954566_1_alg».proof.Proof.Gen.KernelIdeal.Frame
import proofs.«110213_j52012053954566_1_alg».proof.Proof.LibTypedRef
import Idealize.ShloMosaic.Lib.StableHlo.Run
import Idealize.ShloMosaic.Lib.Pipeline.Value
import Idealize.ShloMosaic.Lib.ValueIdx
import Idealize.ShloMosaic.Lib.ValueLayout

set_option maxRecDepth 8192

noncomputable section

namespace Cert.KernelIdeal.HostGlue

open Idealize.ShloMosaic Idealize.ShloMosaic.TcCoe Idealize.SL.Sem
open Idealize.ShloMosaic.ValueIdx (ix1 ix2)

/-! ## The graph propagation, as the program computes it -/

/-- An index list with the negative entries moved up by the number of nodes (the program's index wrap-around). -/
def wrap (x : IVec S1700000 32) : IVec S1700000 32 :=
  select (cmpi .slt x (broadcastInDim S1700000 ![] Gen.bcast_S_S1700000 (constantI S_ 32 0#32)))
    (addi x (broadcastInDim S1700000 ![] Gen.bcast_S_S1700000 (constantI S_ 32 100000#32))) x

/-- The sources of the edges, then every node once. -/
def src (e : IVec S2x1600000 32) : IVec S1700000 32 :=
  concatenate S1700000 0
    [⟨S1600000, fun i => shapeCast S1600000 (extractStridedSlice S1x1600000 ![0, 0] e Gen.slices_S2x1600000_S1x1600000_0_0)
        Gen.shapeCasts_S1x1600000_S1600000 i⟩,
     ⟨S100000, iotaInDim S100000 32 0⟩] Gen.concatenates_S1600000_S100000_S1700000_d0

/-- The targets of the edges, then every node once. -/
def dst (e : IVec S2x1600000 32) : IVec S1700000 32 :=
  concatenate S1700000 0
    [⟨S1600000, fun i => shapeCast S1600000 (extractStridedSlice S1x1600000 ![1, 0] e Gen.slices_S2x1600000_S1x1600000_1_0)
        Gen.shapeCasts_S1x1600000_S1600000 i⟩,
     ⟨S100000, iotaInDim S100000 32 0⟩] Gen.concatenates_S1600000_S100000_S1700000_d0

/-- A node's degree: the number of list entries whose target it is. -/
def deg (e : IVec S2x1600000 32) : FVec Ideal S100000 .f32 :=
  Host.scatterAdd (F := Ideal) scatter_S100000_S1700000x1_S1700000_n_0_0_1
    (broadcastInDim S100000 ![] Gen.bcast_S_S100000 (constant (F := Ideal) S_ .f32 0x00000000#32))
    (broadcastInDim S1700000x1 ![0] Gen.bcast_S1700000_S1700000x1_0 (dst e))
    (broadcastInDim S1700000 ![] Gen.bcast_S_S1700000 (constant (F := Ideal) S_ .f32 0x3F800000#32))

/-- Where the degree is positive. -/
def degPos (e : IVec S2x1600000 32) : IVec S100000 1 :=
  cmpf (F := Ideal) .ogt (deg e)
    (broadcastInDim S100000 ![] Gen.bcast_S_S100000 (constant (F := Ideal) S_ .f32 0x00000000#32))

/-- The inverse square root of the degree, the degree kept away from zero by a tiny positive constant. -/
def degRsqrt (e : IVec S2x1600000 32) : FVec Ideal S100000 .f32 :=
  Host.rsqrt (F := Ideal) (maximumf (F := Ideal) (deg e)
    (broadcastInDim S100000 ![] Gen.bcast_S_S100000 (constant (F := Ideal) S_ .f32 0x2B8CBCCC#32)))

/-- The inverse square root of a node's degree, zero where the degree is zero. -/
def dinv (e : IVec S2x1600000 32) : FVec Ideal S100000 .f32 :=
  select (degPos e) (degRsqrt e)
    (broadcastInDim S100000 ![] Gen.bcast_S_S100000 (id (constant (F := Ideal) S_ .f32 0x00000000#32)))

/-- A list entry's weight: the product of the two endpoints' inverse square root degrees. -/
def norm (e : IVec S2x1600000 32) : FVec Ideal S1700000 .f32 :=
  mulf (F := Ideal)
    (Host.gather gather_S100000_S1700000x1_S1700000_n_0_n_n_0_1_1 (dinv e)
      (broadcastInDim S1700000x1 ![0] Gen.bcast_S1700000_S1700000x1_0 (wrap (src e))))
    (Host.gather gather_S100000_S1700000x1_S1700000_n_0_n_n_0_1_1 (dinv e)
      (broadcastInDim S1700000x1 ![0] Gen.bcast_S1700000_S1700000x1_0 (wrap (dst e))))

/-- The propagation of a node array over the graph: into each target's row, the sum over the list entries of the
    source's row times the entry's weight. -/
def prop (e : IVec S2x1600000 32) (h : FVec Ideal S100000x64 .f32) : FVec Ideal S100000x64 .f32 :=
  Host.scatterAdd (F := Ideal) scatter_S100000x64_S1700000x1_S1700000x64_1_0_0_1
    (broadcastInDim S100000x64 ![] Gen.bcast_S_S100000x64 (constant (F := Ideal) S_ .f32 0x00000000#32))
    (broadcastInDim S1700000x1 ![0] Gen.bcast_S1700000_S1700000x1_0 (dst e))
    (mulf (F := Ideal)
      (Host.gather gather_S100000x64_S1700000x1_S1700000x64_1_0_n_n_0_1_164 h
        (broadcastInDim S1700000x1 ![0] Gen.bcast_S1700000_S1700000x1_0 (wrap (src e))))
      (broadcastInDim S1700000x64 ![0, 1] Gen.bcast_S1700000x1_S1700000x64_0_1
        (broadcastInDim S1700000x1 ![0] Gen.bcast_S1700000_S1700000x1_0 (norm e))))

variable (m : (ℓ : Loc nD τ sig) → Buf (Elt Ideal) ℓ) (ρ : Dev nD → PrngReg) (c : Dev nD)

/-! ## Small reshapes read at an index -/

section Casts
variable {α : Type}

/-- A column of a entries cast to a row reads, at (u, i), the column's entry (i, v). -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) (v : Fin 1) :
    shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.zero_mul, Nat.zero_add, Nat.mul_one, Nat.add_zero])

/-- A one-entry vector cast to a one-by-one matrix reads its only entry. -/
theorem shapeCast_1_11_apply (x : (⟨1, ![1]⟩ : Shape).Idx → α)
    (h : (⟨1, ![1]⟩ : Shape).ShapeCasts ⟨2, ![1, 1]⟩) (u v w : Fin 1) :
    shapeCast ⟨2, ![1, 1]⟩ x h (ix2 u v) = x (ix1 w) :=
  shapeCast_apply x h _ _ (by
    have hu : u.val = 0 := by omega
    have hv : v.val = 0 := by omega
    have hw : w.val = 0 := by omega
    rw [Shape.rowMajor_val_two, Shape.rowMajor_val_one]
    show w.val = u.val * 1 + v.val
    rw [hu, hv, hw])

end Casts

/-! ## The first region's entry: the arguments as launched, the three bias vectors as rows -/

theorem V1_arg0 : Gen.V1 (F := Ideal) m ρ c main_arg0 = m ((c : Thread nD τ).loc main_arg0) := by
  dsimp only [Gen.V1, Gen.W1, Gen.hostOps0]; after_results

theorem V1_arg2 : Gen.V1 (F := Ideal) m ρ c main_arg2 = m ((c : Thread nD τ).loc main_arg2) := by
  dsimp only [Gen.V1, Gen.W1, Gen.hostOps0]; after_results

theorem V1_arg4 : Gen.V1 (F := Ideal) m ρ c main_arg4 = m ((c : Thread nD τ).loc main_arg4) := by
  dsimp only [Gen.V1, Gen.W1, Gen.hostOps0]; after_results

theorem V1_arg6 : Gen.V1 (F := Ideal) m ρ c main_arg6 = m ((c : Thread nD τ).loc main_arg6) := by
  dsimp only [Gen.V1, Gen.W1, Gen.hostOps0]; after_results

theorem V1_v0_eq : (Gen.V1 (F := Ideal) m ρ c main_v0 : S1x64.Idx → EReal)
    = shapeCast S1x64 (m ((c : Thread nD τ).loc main_arg3) : S64.Idx → EReal) Gen.shapeCasts_S64_S1x64 := by
  dsimp only [Gen.V1, Gen.W1, Gen.hostOps0]; after_results; rfl

theorem V1_v1_eq : (Gen.V1 (F := Ideal) m ρ c main_v1 : S1x64.Idx → EReal)
    = shapeCast S1x64 (m ((c : Thread nD τ).loc main_arg5) : S64.Idx → EReal) Gen.shapeCasts_S64_S1x64 := by
  dsimp only [Gen.V1, Gen.W1, Gen.hostOps0]; after_results; rfl

theorem V1_v2_eq : (Gen.V1 (F := Ideal) m ρ c main_v2 : S1x64.Idx → EReal)
    = shapeCast S1x64 (m ((c : Thread nD τ).loc main_arg7) : S64.Idx → EReal) Gen.shapeCasts_S64_S1x64 := by
  dsimp only [Gen.V1, Gen.W1, Gen.hostOps0]; after_results; rfl

/-- The first bias row, entry by entry. -/
theorem V1_v0 (j : Fin 64) : (Gen.V1 (F := Ideal) m ρ c main_v0 : S1x64.Idx → EReal) (ix2 0 j)
    = (m ((c : Thread nD τ).loc main_arg3) : S64.Idx → EReal) (ix1 j) := by
  rw [V1_v0_eq]; exact ValueIdx.shapeCast_a_1a_apply _ _ 0 j

/-- The second bias row, entry by entry. -/
theorem V1_v1 (j : Fin 64) : (Gen.V1 (F := Ideal) m ρ c main_v1 : S1x64.Idx → EReal) (ix2 0 j)
    = (m ((c : Thread nD τ).loc main_arg5) : S64.Idx → EReal) (ix1 j) := by
  rw [V1_v1_eq]; exact ValueIdx.shapeCast_a_1a_apply _ _ 0 j

/-- The third bias row, entry by entry. -/
theorem V1_v2 (j : Fin 64) : (Gen.V1 (F := Ideal) m ρ c main_v2 : S1x64.Idx → EReal) (ix2 0 j)
    = (m ((c : Thread nD τ).loc main_arg7) : S64.Idx → EReal) (ix1 j) := by
  rw [V1_v2_eq]; exact ValueIdx.shapeCast_a_1a_apply _ _ 0 j

/-! ## The second region's entry

Every buffer is read back through the three stretches of operations between the regions to the first region's
exit: there the first region's three results hold what its write-backs left, and every other buffer what it held
when the first region was entered. -/

/-- The edge list is never written: at the first region's exit it is as launched. -/
theorem W2_arg1 : Gen.W2 (F := Ideal) m ρ c (Proc.devRef .tc main_arg1) = m ((c : Thread nD τ).loc main_arg1) :=
  (Gen.W2_of_ne m ρ c main_arg1 (by decide)).trans (by
    dsimp only [Gen.W1, Gen.hostOps0]; after_results)

/-! ### After the first stretch: the two index lists, the degree's two derived arrays, the zero -/

theorem W3_v7 : Gen.W3 (F := Ideal) m ρ c (Proc.devRef .tc main_v7) = src (m ((c : Thread nD τ).loc main_arg1)) := by
  dsimp only [Gen.W3, Gen.hostOps1]; after_results; rw [W2_arg1]; rfl

theorem W3_v10 : Gen.W3 (F := Ideal) m ρ c (Proc.devRef .tc main_v10) = dst (m ((c : Thread nD τ).loc main_arg1)) := by
  dsimp only [Gen.W3, Gen.hostOps1]; after_results; rw [W2_arg1]; rfl

theorem W3_v16 : Gen.W3 (F := Ideal) m ρ c (Proc.devRef .tc main_v16) = degPos (m ((c : Thread nD τ).loc main_arg1)) := by
  dsimp only [Gen.W3, Gen.hostOps1]; after_results; rw [W2_arg1]; rfl

theorem W3_v19 : Gen.W3 (F := Ideal) m ρ c (Proc.devRef .tc main_v19) = degRsqrt (m ((c : Thread nD τ).loc main_arg1)) := by
  dsimp only [Gen.W3, Gen.hostOps1]; after_results; rw [W2_arg1]; rfl

theorem W3_cst_3 : Gen.W3 (F := Ideal) m ρ c (Proc.devRef .tc main_cst_3) = constant (F := Ideal) S_ .f32 0x00000000#32 := by
  dsimp only [Gen.W3, Gen.hostOps1]; after_results

theorem W3_v3_0 : Gen.W3 (F := Ideal) m ρ c (Proc.devRef .tc main_v3_0) = (Gen.dat0 (Gen.V1 m ρ) c).arrAt 7 cfg0.N := by
  dsimp only [Gen.W3, Gen.hostOps1]; after_results; exact Gen.W2_arr m ρ c 7

theorem W3_v3_1 : Gen.W3 (F := Ideal) m ρ c (Proc.devRef .tc main_v3_1) = (Gen.dat0 (Gen.V1 m ρ) c).arrAt 8 cfg0.N := by
  dsimp only [Gen.W3, Gen.hostOps1]; after_results; exact Gen.W2_arr m ρ c 8

/-! ### After the second stretch: the inverse square root degrees -/

theorem W4_v7 : Gen.W4 (F := Ideal) m ρ c (Proc.devRef .tc main_v7) = src (m ((c : Thread nD τ).loc main_arg1)) :=
  (show StableHlo.after Gen.hostOps1_1 (Gen.W3 m ρ c) (Proc.devRef .tc main_v7) = Gen.W3 m ρ c (Proc.devRef .tc main_v7) by
    generalize Gen.W3 (F := Ideal) m ρ c = X; dsimp only [Gen.hostOps1_1]; after_results).trans (W3_v7 m ρ c)

theorem W4_v10 : Gen.W4 (F := Ideal) m ρ c (Proc.devRef .tc main_v10) = dst (m ((c : Thread nD τ).loc main_arg1)) :=
  (show StableHlo.after Gen.hostOps1_1 (Gen.W3 m ρ c) (Proc.devRef .tc main_v10) = Gen.W3 m ρ c (Proc.devRef .tc main_v10) by
    generalize Gen.W3 (F := Ideal) m ρ c = X; dsimp only [Gen.hostOps1_1]; after_results).trans (W3_v10 m ρ c)

theorem W4_v3_0 : Gen.W4 (F := Ideal) m ρ c (Proc.devRef .tc main_v3_0) = (Gen.dat0 (Gen.V1 m ρ) c).arrAt 7 cfg0.N :=
  (show StableHlo.after Gen.hostOps1_1 (Gen.W3 m ρ c) (Proc.devRef .tc main_v3_0) = Gen.W3 m ρ c (Proc.devRef .tc main_v3_0) by
    generalize Gen.W3 (F := Ideal) m ρ c = X; dsimp only [Gen.hostOps1_1]; after_results).trans (W3_v3_0 m ρ c)

theorem W4_v3_1 : Gen.W4 (F := Ideal) m ρ c (Proc.devRef .tc main_v3_1) = (Gen.dat0 (Gen.V1 m ρ) c).arrAt 8 cfg0.N :=
  (show StableHlo.after Gen.hostOps1_1 (Gen.W3 m ρ c) (Proc.devRef .tc main_v3_1) = Gen.W3 m ρ c (Proc.devRef .tc main_v3_1) by
    generalize Gen.W3 (F := Ideal) m ρ c = X; dsimp only [Gen.hostOps1_1]; after_results).trans (W3_v3_1 m ρ c)

theorem W4_v20 : Gen.W4 (F := Ideal) m ρ c (Proc.devRef .tc main_v20) = dinv (m ((c : Thread nD τ).loc main_arg1)) := by
  have e16 := W3_v16 m ρ c
  have e19 := W3_v19 m ρ c
  have e3 := W3_cst_3 m ρ c
  show StableHlo.after Gen.hostOps1_1 (Gen.W3 m ρ c) (Proc.devRef .tc main_v20) = _
  generalize Gen.W3 (F := Ideal) m ρ c = X at e16 e19 e3 ⊢
  dsimp only [Gen.hostOps1_1]
  after_results
  refine eq_of_heq ((Cert.Lib.TypedRef.toBuf_heq _ _).trans (heq_of_eq ?_))
  simp only [Cert.Lib.TypedRef.ofBuf_toBuf]
  have h16 : (StableHlo.TRef.of main_v16 : StableHlo.TRef sig ⟨S100000, .i1⟩).ofBuf (X (Proc.devRef .tc main_v16))
      = degPos (m ((c : Thread nD τ).loc main_arg1)) :=
    eq_of_heq ((Cert.Lib.TypedRef.ofBuf_heq _ _).trans (heq_of_eq e16))
  have h19 : (StableHlo.TRef.of main_v19 : StableHlo.TRef sig ⟨S100000, .f32⟩).ofBuf (X (Proc.devRef .tc main_v19))
      = degRsqrt (m ((c : Thread nD τ).loc main_arg1)) :=
    eq_of_heq ((Cert.Lib.TypedRef.ofBuf_heq _ _).trans (heq_of_eq e19))
  have h3 : (StableHlo.TRef.of main_cst_3 : StableHlo.TRef sig ⟨S_, .f32⟩).ofBuf (X (Proc.devRef .tc main_cst_3))
      = constant (F := Ideal) S_ .f32 0x00000000#32 :=
    eq_of_heq ((Cert.Lib.TypedRef.ofBuf_heq _ _).trans (heq_of_eq e3))
  rw [h16, h19, h3]
  rfl

/-! ### After the third stretch: the second region's entry -/

/-- The first region's first result is not written again. -/
theorem V5_v3_0 : Gen.V5 (F := Ideal) m ρ c main_v3_0 = (Gen.dat0 (Gen.V1 m ρ) c).arrAt 7 cfg0.N :=
  (show StableHlo.after Gen.hostOps1_2 (Gen.W4 m ρ c) (Proc.devRef .tc main_v3_0) = Gen.W4 m ρ c (Proc.devRef .tc main_v3_0) by
    generalize Gen.W4 (F := Ideal) m ρ c = Y; dsimp only [Gen.hostOps1_2]; after_results_simp).trans (W4_v3_0 m ρ c)

/-- The first region's third result is not written again. -/
theorem V5_v3_2 : Gen.V5 (F := Ideal) m ρ c main_v3_2 = (Gen.dat0 (Gen.V1 m ρ) c).arrAt 9 cfg0.N := by
  dsimp only [Gen.V5, Gen.W5, Gen.W4, Gen.W3, Gen.hostOps1, Gen.hostOps1_1, Gen.hostOps1_2]
  after_results_simp
  exact Gen.W2_arr m ρ c 9

/-- The high-pass propagation: the first region's first result propagated over the graph. -/
theorem V5_v48 : Gen.V5 (F := Ideal) m ρ c main_v48
    = prop (m ((c : Thread nD τ).loc main_arg1)) ((Gen.dat0 (Gen.V1 m ρ) c).arrAt 7 cfg0.N) := by
  have e7 := W4_v7 m ρ c
  have e10 := W4_v10 m ρ c
  have e20 := W4_v20 m ρ c
  have eh := W4_v3_0 m ρ c
  show StableHlo.after Gen.hostOps1_2 (Gen.W4 m ρ c) (Proc.devRef .tc main_v48) = _
  generalize Gen.W4 (F := Ideal) m ρ c = Y at e7 e10 e20 eh ⊢
  dsimp only [Gen.hostOps1_2]
  after_results_simp
  rw [e7, e10, e20, eh]
  rfl

/-- The low-pass propagation: the first region's second result propagated over the graph. -/
theorem V5_v61 : Gen.V5 (F := Ideal) m ρ c main_v61
    = prop (m ((c : Thread nD τ).loc main_arg1)) ((Gen.dat0 (Gen.V1 m ρ) c).arrAt 8 cfg0.N) := by
  have e7 := W4_v7 m ρ c
  have e10 := W4_v10 m ρ c
  have e20 := W4_v20 m ρ c
  have eh := W4_v3_1 m ρ c
  show StableHlo.after Gen.hostOps1_2 (Gen.W4 m ρ c) (Proc.devRef .tc main_v61) = _
  generalize Gen.W4 (F := Ideal) m ρ c = Y at e7 e10 e20 eh ⊢
  dsimp only [Gen.hostOps1_2]
  after_results_simp
  rw [e7, e10, e20, eh]
  rfl

/-! ### The gate vectors and the gate biases: never written, and reshaped into rows by the third stretch -/

theorem W4_arg8 : Gen.W4 (F := Ideal) m ρ c (Proc.devRef .tc main_arg8) = m ((c : Thread nD τ).loc main_arg8) := by
  dsimp only [Gen.W4, Gen.W3, Gen.hostOps1_1, Gen.hostOps1]
  after_results_simp
  exact (Gen.W2_of_ne m ρ c main_arg8 (by decide)).trans (by dsimp only [Gen.W1, Gen.hostOps0]; after_results)

theorem W4_arg9 : Gen.W4 (F := Ideal) m ρ c (Proc.devRef .tc main_arg9) = m ((c : Thread nD τ).loc main_arg9) := by
  dsimp only [Gen.W4, Gen.W3, Gen.hostOps1_1, Gen.hostOps1]
  after_results_simp
  exact (Gen.W2_of_ne m ρ c main_arg9 (by decide)).trans (by dsimp only [Gen.W1, Gen.hostOps0]; after_results)

theorem W4_arg10 : Gen.W4 (F := Ideal) m ρ c (Proc.devRef .tc main_arg10) = m ((c : Thread nD τ).loc main_arg10) := by
  dsimp only [Gen.W4, Gen.W3, Gen.hostOps1_1, Gen.hostOps1]
  after_results_simp
  exact (Gen.W2_of_ne m ρ c main_arg10 (by decide)).trans (by dsimp only [Gen.W1, Gen.hostOps0]; after_results)

theorem W4_arg11 : Gen.W4 (F := Ideal) m ρ c (Proc.devRef .tc main_arg11) = m ((c : Thread nD τ).loc main_arg11) := by
  dsimp only [Gen.W4, Gen.W3, Gen.hostOps1_1, Gen.hostOps1]
  after_results_simp
  exact (Gen.W2_of_ne m ρ c main_arg11 (by decide)).trans (by dsimp only [Gen.W1, Gen.hostOps0]; after_results)

theorem W4_arg12 : Gen.W4 (F := Ideal) m ρ c (Proc.devRef .tc main_arg12) = m ((c : Thread nD τ).loc main_arg12) := by
  dsimp only [Gen.W4, Gen.W3, Gen.hostOps1_1, Gen.hostOps1]
  after_results_simp
  exact (Gen.W2_of_ne m ρ c main_arg12 (by decide)).trans (by dsimp only [Gen.W1, Gen.hostOps0]; after_results)

theorem W4_arg13 : Gen.W4 (F := Ideal) m ρ c (Proc.devRef .tc main_arg13) = m ((c : Thread nD τ).loc main_arg13) := by
  dsimp only [Gen.W4, Gen.W3, Gen.hostOps1_1, Gen.hostOps1]
  after_results_simp
  exact (Gen.W2_of_ne m ρ c main_arg13 (by decide)).trans (by dsimp only [Gen.W1, Gen.hostOps0]; after_results)

theorem V5_v62_eq : (Gen.V5 (F := Ideal) m ρ c main_v62 : S1x64.Idx → EReal)
    = shapeCast S1x64 (m ((c : Thread nD τ).loc main_arg8) : S64x1.Idx → EReal) Gen.shapeCasts_S64x1_S1x64 := by
  have e := W4_arg8 m ρ c
  show StableHlo.after Gen.hostOps1_2 (Gen.W4 m ρ c) (Proc.devRef .tc main_v62) = _
  generalize Gen.W4 (F := Ideal) m ρ c = Y at e ⊢
  dsimp only [Gen.hostOps1_2]
  after_results_simp
  rw [e]; rfl

/-- The high-pass gate vector as a row, entry by entry. -/
theorem V5_v62 (k : Fin 64) : (Gen.V5 (F := Ideal) m ρ c main_v62 : S1x64.Idx → EReal) (ix2 0 k)
    = (m ((c : Thread nD τ).loc main_arg8) : S64x1.Idx → EReal) (ix2 k 0) := by
  rw [V5_v62_eq]; exact shapeCast_a1_1a_apply _ _ 0 k 0

theorem V5_v63_eq : (Gen.V5 (F := Ideal) m ρ c main_v63 : S1x64.Idx → EReal)
    = shapeCast S1x64 (m ((c : Thread nD τ).loc main_arg10) : S64x1.Idx → EReal) Gen.shapeCasts_S64x1_S1x64 := by
  have e := W4_arg10 m ρ c
  show StableHlo.after Gen.hostOps1_2 (Gen.W4 m ρ c) (Proc.devRef .tc main_v63) = _
  generalize Gen.W4 (F := Ideal) m ρ c = Y at e ⊢
  dsimp only [Gen.hostOps1_2]
  after_results_simp
  rw [e]; rfl

/-- The low-pass gate vector as a row, entry by entry. -/
theorem V5_v63 (k : Fin 64) : (Gen.V5 (F := Ideal) m ρ c main_v63 : S1x64.Idx → EReal) (ix2 0 k)
    = (m ((c : Thread nD τ).loc main_arg10) : S64x1.Idx → EReal) (ix2 k 0) := by
  rw [V5_v63_eq]; exact shapeCast_a1_1a_apply _ _ 0 k 0

theorem V5_v64_eq : (Gen.V5 (F := Ideal) m ρ c main_v64 : S1x64.Idx → EReal)
    = shapeCast S1x64 (m ((c : Thread nD τ).loc main_arg12) : S64x1.Idx → EReal) Gen.shapeCasts_S64x1_S1x64 := by
  have e := W4_arg12 m ρ c
  show StableHlo.after Gen.hostOps1_2 (Gen.W4 m ρ c) (Proc.devRef .tc main_v64) = _
  generalize Gen.W4 (F := Ideal) m ρ c = Y at e ⊢
  dsimp only [Gen.hostOps1_2]
  after_results_simp
  rw [e]; rfl

/-- The identity gate vector as a row, entry by entry. -/
theorem V5_v64 (k : Fin 64) : (Gen.V5 (F := Ideal) m ρ c main_v64 : S1x64.Idx → EReal) (ix2 0 k)
    = (m ((c : Thread nD τ).loc main_arg12) : S64x1.Idx → EReal) (ix2 k 0) := by
  rw [V5_v64_eq]; exact shapeCast_a1_1a_apply _ _ 0 k 0

theorem V5_v65_eq : (Gen.V5 (F := Ideal) m ρ c main_v65 : S1x1.Idx → EReal)
    = shapeCast S1x1 (m ((c : Thread nD τ).loc main_arg9) : S1.Idx → EReal) Gen.shapeCasts_S1_S1x1 := by
  have e := W4_arg9 m ρ c
  show StableHlo.after Gen.hostOps1_2 (Gen.W4 m ρ c) (Proc.devRef .tc main_v65) = _
  generalize Gen.W4 (F := Ideal) m ρ c = Y at e ⊢
  dsimp only [Gen.hostOps1_2]
  after_results_simp
  rw [e]; rfl

/-- The high-pass gate bias. -/
theorem V5_v65 : (Gen.V5 (F := Ideal) m ρ c main_v65 : S1x1.Idx → EReal) (ix2 0 0)
    = (m ((c : Thread nD τ).loc main_arg9) : S1.Idx → EReal) (ix1 0) := by
  rw [V5_v65_eq]; exact shapeCast_1_11_apply _ _ 0 0 0

theorem V5_v66_eq : (Gen.V5 (F := Ideal) m ρ c main_v66 : S1x1.Idx → EReal)
    = shapeCast S1x1 (m ((c : Thread nD τ).loc main_arg11) : S1.Idx → EReal) Gen.shapeCasts_S1_S1x1 := by
  have e := W4_arg11 m ρ c
  show StableHlo.after Gen.hostOps1_2 (Gen.W4 m ρ c) (Proc.devRef .tc main_v66) = _
  generalize Gen.W4 (F := Ideal) m ρ c = Y at e ⊢
  dsimp only [Gen.hostOps1_2]
  after_results_simp
  rw [e]; rfl

/-- The low-pass gate bias. -/
theorem V5_v66 : (Gen.V5 (F := Ideal) m ρ c main_v66 : S1x1.Idx → EReal) (ix2 0 0)
    = (m ((c : Thread nD τ).loc main_arg11) : S1.Idx → EReal) (ix1 0) := by
  rw [V5_v66_eq]; exact shapeCast_1_11_apply _ _ 0 0 0

theorem V5_v67_eq : (Gen.V5 (F := Ideal) m ρ c main_v67 : S1x1.Idx → EReal)
    = shapeCast S1x1 (m ((c : Thread nD τ).loc main_arg13) : S1.Idx → EReal) Gen.shapeCasts_S1_S1x1 := by
  have e := W4_arg13 m ρ c
  show StableHlo.after Gen.hostOps1_2 (Gen.W4 m ρ c) (Proc.devRef .tc main_v67) = _
  generalize Gen.W4 (F := Ideal) m ρ c = Y at e ⊢
  dsimp only [Gen.hostOps1_2]
  after_results_simp
  rw [e]; rfl

/-- The identity gate bias. -/
theorem V5_v67 : (Gen.V5 (F := Ideal) m ρ c main_v67 : S1x1.Idx → EReal) (ix2 0 0)
    = (m ((c : Thread nD τ).loc main_arg13) : S1.Idx → EReal) (ix1 0) := by
  rw [V5_v67_eq]; exact shapeCast_1_11_apply _ _ 0 0 0

end Cert.KernelIdeal.HostGlue

end
-- ==== Proof.RowSpec.lean ====
/-
  The mathematics of one output row, stated once over the extended reals and over plain coordinates
  (a node `r`, a feature `j : Fin 64`, a contracted input feature `k : Fin 256`), with no program in sight.

  A node's three feature rows are
    * the high-pass row   hh = max (A − B) 0   where A = x·W_hp + b_hp and B is A propagated over the graph,
    * the low-pass row    hl = max C 0         where C is x·W_lp + b_lp propagated over the graph,
    * the identity row    hi = max (x·W_i + b_i) 0.
  Each row gets a scalar gate  σ(⟨row, w⟩ + b)  (σ the logistic function), the gated rows are added, and the
  result is normalised by a log-softmax along the 64 features: o − max o − log Σ exp (o − max o).
-/
import Idealize.ShloMosaic.PureOps.Ideal
import Idealize.ShloMosaic.Lib.ValueIdx

noncomputable section

namespace Cert.RowSpec

open Idealize.ShloMosaic

/-- One entry of `x·W + b`: a row of `x` against a column of `W`, plus the bias entry. -/
def lin (xr wc : Fin 256 → EReal) (b : EReal) : EReal := (∑ k : Fin 256, xr k * wc k) + b

/-- The scalar gate of a feature row: the logistic function of the row's inner product with `w`, plus `b`. -/
def gate (h w : Fin 64 → EReal) (b : EReal) : EReal := Ideal.logistic ((∑ k : Fin 64, h k * w k) + b)

/-- The three gated rows added, feature by feature. -/
def mix (hh hl hi wh wl wi : Fin 64 → EReal) (bh bl bi : EReal) (j : Fin 64) : EReal :=
  gate hh wh bh * hh j + gate hl wl bl * hl j + gate hi wi bi * hi j

/-- The largest of a row's 64 entries (the fold of `max` from −∞). -/
def rowMax (o : Fin 64 → EReal) : EReal := (Finset.univ : Finset (Fin 64)).fold max ⊥ o

/-- Log-softmax of a row: `o j − max o − log Σₖ exp (o k − max o)`. -/
def logSoftmax (o : Fin 64 → EReal) (j : Fin 64) : EReal :=
  (o j - rowMax o) - Ideal.log (∑ k : Fin 64, Ideal.exp (o k - rowMax o))

/-- One output row from the node's three feature rows, the three gate vectors and the three gate biases. -/
def rowOut (hh hl hi wh wl wi : Fin 64 → EReal) (bh bl bi : EReal) : Fin 64 → EReal :=
  logSoftmax (mix hh hl hi wh wl wi bh bl bi)

end Cert.RowSpec

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.ProjValue.lean ====
/-
  The three arrays the projection stage leaves: for every node `r` and feature `j`,
    * `x·W_hp + b_hp` and `x·W_lp + b_lp` (the two linear maps that the graph propagation consumes), and
    * `max (x·W_i + b_i) 0` (the identity branch, already rectified).

  The stage works on blocks of 5000 consecutive nodes. On one block the computed entry `(p, j)` is the row `p` of the block
  of `x` against column `j` of the weight matrix, plus the bias entry `j`. The block of `x` at step `t` is rows
  `5000·t … 5000·t + 4999` of `x`; the weights and biases are read whole at every step. So the block written at step `t`
  is the restriction to those rows of ONE function of the whole arrays, and the twenty blocks cover all 100000 rows.
-/
import proofs.«110213_j52012053954566_1_alg».proof.Proof.Gen.KernelIdeal.Frame
import proofs.«110213_j52012053954566_1_alg».proof.Proof.RowSpec
import proofs.«110213_j52012053954566_1_alg».proof.Proof.LibMatmulIx
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.ProjValue

open Cert.KernelIdeal Cert.KernelIdeal.Gen

/-! ## One entry of a block -/

/-- Entry `(p, q)` of `x·w + b` on one block: row `p` of `x` against column `q` of `w`, plus `b`'s entry `q`
    (the bias is one row, repeated over the block's rows; narrowing the operands changes nothing over the extended reals). -/
theorem pay2_apply (x : Vec Ideal S5000x256 .f32) (w : Vec Ideal S256x64 .f32) (b : Vec Ideal S1x64 .f32)
    (p : Fin 5000) (q : Fin 64) :
    Gen.k0_pay2 x w b (ix2 p q)
      = Cert.RowSpec.lin (fun k => x (ix2 p k)) (fun k => w (ix2 k q)) (b (ix2 0 q)) := by
  unfold Gen.k0_pay2 Gen.k0_pay1 Cert.RowSpec.lin
  dsimp only
  refine (addf_apply _ _ _).trans ?_
  refine congrArg₂ (fun u v : EReal => u + v) ?_ ?_
  · exact Cert.LibMatmulIx.matmul_zero_apply _ none _ _ p q
  · refine (broadcastTo_1b_ab_apply _ _ p q).trans ?_
    exact congrFun (shapeCast_self b _) _

/-- The third payload is the same entry, written from another weight matrix and bias. -/
theorem pay3_apply (x : Vec Ideal S5000x256 .f32) (w : Vec Ideal S256x64 .f32) (b : Vec Ideal S1x64 .f32)
    (p : Fin 5000) (q : Fin 64) :
    Gen.k0_pay3 x w b (ix2 p q)
      = Cert.RowSpec.lin (fun k => x (ix2 p k)) (fun k => w (ix2 k q)) (b (ix2 0 q)) :=
  pay2_apply x w b p q

/-- The identity branch's entry: the same entry, then the maximum with zero. -/
theorem pay4_apply (x : Vec Ideal S5000x256 .f32) (w : Vec Ideal S256x64 .f32) (b : Vec Ideal S1x64 .f32)
    (p : Fin 5000) (q : Fin 64) :
    Gen.k0_pay4 x w b (ix2 p q)
      = max (Cert.RowSpec.lin (fun k => x (ix2 p k)) (fun k => w (ix2 k q)) (b (ix2 0 q))) 0 := by
  refine (maximumf_apply (Gen.k0_pay2 x w b) _ (ix2 p q)).trans ?_
  refine congrArg₂ (fun u v : EReal => max u v) (pay2_apply x w b p q) ?_
  exact Ideal.ofBits_zero_f32

/-! ## Where each block sits in its array -/

theorem hz : (![0, 0] : Fin 2 → Nat) = fun _ => 0 := funext fun a => by fin_cases a <;> rfl

/-- At step `t` the node-indexed windows (the input `x` and the three outputs) are at row block `t`, column block 0. -/
theorem idx_rows : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The weights and biases are read whole at every step: block (0, 0). -/
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

section Blocks

variable (V : (c : Dev nD) → (b : Ref sig .tc) → Buf (Elt Ideal) ((c : Thread nD τ).loc b))

/-- The block of `x` at step `t` is rows `5000·t …` of `x`. -/
theorem blk_x (c : Dev nD) (t : Fin cfg0.N) (y : S5000x256.Idx) (i : S100000x256.Idx)
    (h0 : (i 0).val = t.val * 5000 + (y 0).val) (h1 : (i 1).val = (y 1).val) :
    (Gen.iblk0 (F := Ideal) V c 0 t : Vec Ideal S5000x256 .f32) y = (V c main_arg0 : S100000x256.Idx → EReal) i := by
  obtain ⟨e0, e1, -⟩ := idx_rows t
  unfold Gen.iblk0
  rw [View.read_apply]
  show V c main_arg0 _ = V c main_arg0 _
  refine congrArg _ ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The high-pass weights are read whole. -/
theorem blk_whp (c : Dev nD) (t : Fin cfg0.N) (y : S256x64.Idx) :
    (Gen.iblk0 (F := Ideal) V c 1 t : Vec Ideal S256x64 .f32) y = (V c main_arg2 : S256x64.Idx → EReal) y := by
  obtain ⟨e0, e1, -, -, -, -, -, -, -, -, -, -⟩ := idx_whole t
  unfold Gen.iblk0
  rw [View.read_apply]
  show V c main_arg2 _ = V c main_arg2 _
  refine congrArg _ ?_
  funext a
  apply Fin.ext
  match a with
  | ⟨0, _⟩ => show win0_1.index t (0 : Fin 2) * 256 + 1 * (y 0).val = (y 0).val; rw [e0]; omega
  | ⟨1, _⟩ => show win0_1.index t (1 : Fin 2) * 64 + 1 * (y 1).val = (y 1).val; rw [e1]; omega

/-- The high-pass bias row is read whole. -/
theorem blk_bhp (c : Dev nD) (t : Fin cfg0.N) (y : S1x64.Idx) :
    (Gen.iblk0 (F := Ideal) V c 2 t : Vec Ideal S1x64 .f32) y = (V c main_v0 : S1x64.Idx → EReal) y := by
  obtain ⟨-, -, e0, e1, -, -, -, -, -, -, -, -⟩ := idx_whole t
  unfold Gen.iblk0
  rw [View.read_apply]
  show V c main_v0 _ = V c main_v0 _
  refine congrArg _ ?_
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The low-pass weights are read whole. -/
theorem blk_wlp (c : Dev nD) (t : Fin cfg0.N) (y : S256x64.Idx) :
    (Gen.iblk0 (F := Ideal) V c 3 t : Vec Ideal S256x64 .f32) y = (V c main_arg4 : S256x64.Idx → EReal) y := by
  obtain ⟨-, -, -, -, e0, e1, -, -, -, -, -, -⟩ := idx_whole t
  unfold Gen.iblk0
  rw [View.read_apply]
  show V c main_arg4 _ = V c main_arg4 _
  refine congrArg _ ?_
  funext a
  apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

/-- The low-pass bias row is read whole. -/
theorem blk_blp (c : Dev nD) (t : Fin cfg0.N) (y : S1x64.Idx) :
    (Gen.iblk0 (F := Ideal) V c 4 t : Vec Ideal S1x64 .f32) y = (V c main_v1 : S1x64.Idx → EReal) y := by
  obtain ⟨-, -, -, -, -, -, e0, e1, -, -, -, -⟩ := idx_whole t
  unfold Gen.iblk0
  rw [View.read_apply]
  show V c main_v1 _ = V c main_v1 _
  refine congrArg _ ?_
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The identity branch's weights are read whole. -/
theorem blk_wi (c : Dev nD) (t : Fin cfg0.N) (y : S256x64.Idx) :
    (Gen.iblk0 (F := Ideal) V c 5 t : Vec Ideal S256x64 .f32) y = (V c main_arg6 : S256x64.Idx → EReal) y := by
  obtain ⟨-, -, -, -, -, -, -, -, e0, e1, -, -⟩ := idx_whole t
  unfold Gen.iblk0
  rw [View.read_apply]
  show V c main_arg6 _ = V c main_arg6 _
  refine congrArg _ ?_
  funext a
  apply Fin.ext
  match a with
  | ⟨0, _⟩ => show win0_5.index t (0 : Fin 2) * 256 + 1 * (y 0).val = (y 0).val; rw [e0]; omega
  | ⟨1, _⟩ => show win0_5.index t (1 : Fin 2) * 64 + 1 * (y 1).val = (y 1).val; rw [e1]; omega

/-- The identity branch's bias row is read whole. -/
theorem blk_bi (c : Dev nD) (t : Fin cfg0.N) (y : S1x64.Idx) :
    (Gen.iblk0 (F := Ideal) V c 6 t : Vec Ideal S1x64 .f32) y = (V c main_v2 : S1x64.Idx → EReal) y := by
  obtain ⟨-, -, -, -, -, -, -, -, -, -, e0, e1⟩ := idx_whole t
  unfold Gen.iblk0
  rw [View.read_apply]
  show V c main_v2 _ = V c main_v2 _
  refine congrArg _ ?_
  funext a
  apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-! ## The whole arrays -/

/-- `x·W + b` at every node and feature: row `i 0` of `X` against column `i 1` of `W`, plus entry `i 1` of the bias row. -/
def linArr (X : S100000x256.Idx → EReal) (W : S256x64.Idx → EReal) (B : S1x64.Idx → EReal) : S100000x64.Idx → EReal :=
  fun i => Cert.RowSpec.lin (fun k => X (ix2 (i 0) k)) (fun k => W (ix2 k (i 1))) (B (ix2 0 (i 1)))

/-- The same, rectified. -/
def reluLinArr (X : S100000x256.Idx → EReal) (W : S256x64.Idx → EReal) (B : S1x64.Idx → EReal) : S100000x64.Idx → EReal :=
  fun i => max (Cert.RowSpec.lin (fun k => X (ix2 (i 0) k)) (fun k => W (ix2 k (i 1))) (B (ix2 0 (i 1)))) 0

/-! ## The high-pass map -/

/-- Entry `y` of the block the high-pass map computes at step `t` is entry `i` of `x·W_hp + b_hp`, `i` being `y` moved down by
    `5000·t` rows. -/
theorem hp_at (c : Dev nD) (t : Fin cfg0.N) (y : S5000x64.Idx) (i : S100000x64.Idx)
    (h0 : (i 0).val = t.val * 5000 + (y 0).val) (h1 : (i 1).val = (y 1).val) :
    Gen.k0_pay2 (Gen.iblk0 (F := Ideal) V c 0 t) (Gen.iblk0 (F := Ideal) V c 1 t) (Gen.iblk0 (F := Ideal) V c 2 t) y
      = linArr (V c main_arg0) (V c main_arg2) (V c main_v0) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext h1
  refine (pay2_apply (Gen.iblk0 (F := Ideal) V c 0 t) (Gen.iblk0 (F := Ideal) V c 1 t) (Gen.iblk0 (F := Ideal) V c 2 t) p s).trans ?_
  have hx : (fun k : Fin 256 => (Gen.iblk0 (F := Ideal) V c 0 t : Vec Ideal S5000x256 .f32) (ix2 p k))
      = fun k : Fin 256 => (V c main_arg0 : S100000x256.Idx → EReal) (ix2 r k) :=
    funext fun k => blk_x V c t (ix2 p k) (ix2 r k) h0 rfl
  have hw : (fun k : Fin 256 => (Gen.iblk0 (F := Ideal) V c 1 t : Vec Ideal S256x64 .f32) (ix2 k s))
      = fun k : Fin 256 => (V c main_arg2 : S256x64.Idx → EReal) (ix2 k s) :=
    funext fun k => blk_whp V c t (ix2 k s)
  have hb : (Gen.iblk0 (F := Ideal) V c 2 t : Vec Ideal S1x64 .f32) (ix2 0 s) = (V c main_v0 : S1x64.Idx → EReal) (ix2 0 s) :=
    blk_bhp V c t (ix2 0 s)
  show Cert.RowSpec.lin _ _ _ = Cert.RowSpec.lin _ _ _
  rw [hx, hw, hb]

/-- What step `t` writes back to the first output is block `t` of `x·W_hp + b_hp`. -/
theorem flushed_hp (c : Dev nD) (t : Fin cfg0.N) :
    (Gen.dat0 (F := Ideal) V c).flushed 7 t
      = ((cfg0.win 7).blk t).view.read (Elt Ideal) (linArr (V c main_arg0) (V c main_arg2) (V c main_v0)) := by
  show (cfg0.win 7).cut (grid0.coords t) ((Gen.dat0 (F := Ideal) V c).after 7 t) = _
  rw [Gen.after0_7]
  unfold Gen.out0_7
  rw [View.canon_unit_zero hz]
  simp only [View.ld_unit_zero (S := S5000x256) hz, View.ld_unit_zero (S := S256x64) hz, View.ld_unit_zero (S := S1x64) hz]
  obtain ⟨-, -, e0, e1, -⟩ := idx_rows t
  funext j
  show Gen.k0_pay2 (Gen.iblk0 (F := Ideal) V c 0 t) (Gen.iblk0 (F := Ideal) V c 1 t) (Gen.iblk0 (F := Ideal) V c 2 t)
      ((cfg0.win 7).xinj (grid0.coords t) j)
    = linArr (V c main_arg0) (V c main_arg2) (V c main_v0) (((cfg0.win 7).blk t).view.emb j)
  refine hp_at V c t _ _ ?_ ?_
  · show win0_7.index t (0 : Fin 2) * 5000 + 1 * (j 0).val = t.val * 5000 + (j 0).val
    rw [e0]; omega
  · show win0_7.index t (1 : Fin 2) * 64 + 1 * (j 1).val = (j 1).val
    rw [e1]; omega

/-- An index of the first output is in step `t`'s block iff each coordinate is in the block's range on its axis. -/
theorem mem_blk_hp (t : Fin cfg0.N) (i : S100000x64.Idx) :
    i ∈ ((cfg0.win 7).blk t).view.set
      ↔ ∀ a : Fin 2, win0_7.index t a * S5000x64.size a ≤ (i a).val ∧ (i a).val < win0_7.index t a * S5000x64.size a + S5000x64.size a := by
  show i ∈ ((View.whole main_v3_0).slice (win0_7.rect t)).set ↔ _
  rw [View.set_slice_whole, Rect.mem_set_unit]
  exact Iff.rfl

/-- Row `r` of the first output is written at step `r / 5000`. -/
theorem cover_hp (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := Gen.N_0
  have ht : (i 0).val / 5000 < cfg0.N := by rw [hN]; omega
  obtain ⟨-, -, e0, e1, -⟩ := idx_rows ⟨(i 0).val / 5000, ht⟩
  refine ⟨⟨(i 0).val / 5000, ht⟩, Gen.flush0_7 _, ?_⟩
  rw [mem_blk_hp]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ (1 : Fin 2) * 64 ≤ (i 1).val
      ∧ (i 1).val < win0_7.index ⟨(i 0).val / 5000, ht⟩ (1 : Fin 2) * 64 + 64
    rw [e1]; omega

/-- THE FIRST OUTPUT after the stage: `x·W_hp + b_hp`. -/
theorem arr7 (c : Dev nD) :
    ((Gen.dat0 (F := Ideal) V c).arrAt 7 cfg0.N : S100000x64.Idx → EReal)
      = fun i => Cert.RowSpec.lin (fun k => (V c main_arg0 : S100000x256.Idx → EReal) (ix2 (i 0) k))
          (fun k => (V c main_arg2 : S256x64.Idx → EReal) (ix2 k (i 1))) ((V c main_v0 : S1x64.Idx → EReal) (ix2 0 (i 1))) :=
  (Gen.dat0 (F := Ideal) V c).arrAt_eq_of_cover 7 (linArr (V c main_arg0) (V c main_arg2) (V c main_v0))
    (fun t _ => flushed_hp V c t) cover_hp

/-! ## The low-pass map -/

/-- Entry `y` of the block the low-pass map computes at step `t` is entry `i` of `x·W_lp + b_lp`, `i` being `y` moved down by
    `5000·t` rows. -/
theorem lp_at (c : Dev nD) (t : Fin cfg0.N) (y : S5000x64.Idx) (i : S100000x64.Idx)
    (h0 : (i 0).val = t.val * 5000 + (y 0).val) (h1 : (i 1).val = (y 1).val) :
    Gen.k0_pay3 (Gen.iblk0 (F := Ideal) V c 0 t) (Gen.iblk0 (F := Ideal) V c 3 t) (Gen.iblk0 (F := Ideal) V c 4 t) y
      = linArr (V c main_arg0) (V c main_arg4) (V c main_v1) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext h1
  refine (pay3_apply (Gen.iblk0 (F := Ideal) V c 0 t) (Gen.iblk0 (F := Ideal) V c 3 t) (Gen.iblk0 (F := Ideal) V c 4 t) p s).trans ?_
  have hx : (fun k : Fin 256 => (Gen.iblk0 (F := Ideal) V c 0 t : Vec Ideal S5000x256 .f32) (ix2 p k))
      = fun k : Fin 256 => (V c main_arg0 : S100000x256.Idx → EReal) (ix2 r k) :=
    funext fun k => blk_x V c t (ix2 p k) (ix2 r k) h0 rfl
  have hw : (fun k : Fin 256 => (Gen.iblk0 (F := Ideal) V c 3 t : Vec Ideal S256x64 .f32) (ix2 k s))
      = fun k : Fin 256 => (V c main_arg4 : S256x64.Idx → EReal) (ix2 k s) :=
    funext fun k => blk_wlp V c t (ix2 k s)
  have hb : (Gen.iblk0 (F := Ideal) V c 4 t : Vec Ideal S1x64 .f32) (ix2 0 s) = (V c main_v1 : S1x64.Idx → EReal) (ix2 0 s) :=
    blk_blp V c t (ix2 0 s)
  show Cert.RowSpec.lin _ _ _ = Cert.RowSpec.lin _ _ _
  rw [hx, hw, hb]

/-- What step `t` writes back to the second output is block `t` of `x·W_lp + b_lp`. -/
theorem flushed_lp (c : Dev nD) (t : Fin cfg0.N) :
    (Gen.dat0 (F := Ideal) V c).flushed 8 t
      = ((cfg0.win 8).blk t).view.read (Elt Ideal) (linArr (V c main_arg0) (V c main_arg4) (V c main_v1)) := by
  show (cfg0.win 8).cut (grid0.coords t) ((Gen.dat0 (F := Ideal) V c).after 8 t) = _
  rw [Gen.after0_8]
  unfold Gen.out0_8
  rw [View.canon_unit_zero hz]
  simp only [View.ld_unit_zero (S := S5000x256) hz, View.ld_unit_zero (S := S256x64) hz, View.ld_unit_zero (S := S1x64) hz]
  obtain ⟨-, -, -, -, e0, e1, -⟩ := idx_rows t
  funext j
  show Gen.k0_pay3 (Gen.iblk0 (F := Ideal) V c 0 t) (Gen.iblk0 (F := Ideal) V c 3 t) (Gen.iblk0 (F := Ideal) V c 4 t)
      ((cfg0.win 8).xinj (grid0.coords t) j)
    = linArr (V c main_arg0) (V c main_arg4) (V c main_v1) (((cfg0.win 8).blk t).view.emb j)
  refine lp_at V c t _ _ ?_ ?_
  · show win0_8.index t (0 : Fin 2) * 5000 + 1 * (j 0).val = t.val * 5000 + (j 0).val
    rw [e0]; omega
  · show win0_8.index t (1 : Fin 2) * 64 + 1 * (j 1).val = (j 1).val
    rw [e1]; omega

/-- An index of the second output is in step `t`'s block iff each coordinate is in the block's range on its axis. -/
theorem mem_blk_lp (t : Fin cfg0.N) (i : S100000x64.Idx) :
    i ∈ ((cfg0.win 8).blk t).view.set
      ↔ ∀ a : Fin 2, win0_8.index t a * S5000x64.size a ≤ (i a).val ∧ (i a).val < win0_8.index t a * S5000x64.size a + S5000x64.size a := by
  show i ∈ ((View.whole main_v3_1).slice (win0_8.rect t)).set ↔ _
  rw [View.set_slice_whole, Rect.mem_set_unit]
  exact Iff.rfl

/-- Row `r` of the second output is written at step `r / 5000`. -/
theorem cover_lp (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  have hN : cfg0.N = 20 := Gen.N_0
  have ht : (i 0).val / 5000 < cfg0.N := by rw [hN]; omega
  obtain ⟨-, -, -, -, e0, e1, -⟩ := idx_rows ⟨(i 0).val / 5000, ht⟩
  refine ⟨⟨(i 0).val / 5000, ht⟩, Gen.flush0_8 _, ?_⟩
  rw [mem_blk_lp]
  intro a
  match a with
  | ⟨0, _⟩ =>
    show win0_8.index ⟨(i 0).val / 5000, ht⟩ (0 : Fin 2) * 5000 ≤ (i 0).val
      ∧ (i 0).val < win0_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, ht⟩ (1 : Fin 2) * 64 ≤ (i 1).val
      ∧ (i 1).val < win0_8.index ⟨(i 0).val / 5000, ht⟩ (1 : Fin 2) * 64 + 64
    rw [e1]; omega

/-- THE SECOND OUTPUT after the stage: `x·W_lp + b_lp`. -/
theorem arr8 (c : Dev nD) :
    ((Gen.dat0 (F := Ideal) V c).arrAt 8 cfg0.N : S100000x64.Idx → EReal)
      = fun i => Cert.RowSpec.lin (fun k => (V c main_arg0 : S100000x256.Idx → EReal) (ix2 (i 0) k))
          (fun k => (V c main_arg4 : S256x64.Idx → EReal) (ix2 k (i 1))) ((V c main_v1 : S1x64.Idx → EReal) (ix2 0 (i 1))) :=
  (Gen.dat0 (F := Ideal) V c).arrAt_eq_of_cover 8 (linArr (V c main_arg0) (V c main_arg4) (V c main_v1))
    (fun t _ => flushed_lp V c t) cover_lp

/-! ## The identity branch -/

/-- Entry `y` of the block the identity branch computes at step `t` is entry `i` of `max (x·W_i + b_i) 0`, `i` being `y` moved down by
    `5000·t` rows. -/
theorem id_at (c : Dev nD) (t : Fin cfg0.N) (y : S5000x64.Idx) (i : S100000x64.Idx)
    (h0 : (i 0).val = t.val * 5000 + (y 0).val) (h1 : (i 1).val = (y 1).val) :
    Gen.k0_pay4 (Gen.iblk0 (F := Ideal) V c 0 t) (Gen.iblk0 (F := Ideal) V c 5 t) (Gen.iblk0 (F := Ideal) V c 6 t) y
      = reluLinArr (V c main_arg0) (V c main_arg6) (V c main_v2) i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext h1
  refine (pay4_apply (Gen.iblk0 (F := Ideal) V c 0 t) (Gen.iblk0 (F := Ideal) V c 5 t) (Gen.iblk0 (F := Ideal) V c 6 t) p s).trans ?_
  have hx : (fun k : Fin 256 => (Gen.iblk0 (F := Ideal) V c 0 t : Vec Ideal S5000x256 .f32) (ix2 p k))
      = fun k : Fin 256 => (V c main_arg0 : S100000x256.Idx → EReal) (ix2 r k) :=
    funext fun k => blk_x V c t (ix2 p k) (ix2 r k) h0 rfl
  have hw : (fun k : Fin 256 => (Gen.iblk0 (F := Ideal) V c 5 t : Vec Ideal S256x64 .f32) (ix2 k s))
      = fun k : Fin 256 => (V c main_arg6 : S256x64.Idx → EReal) (ix2 k s) :=
    funext fun k => blk_wi V c t (ix2 k s)
  have hb : (Gen.iblk0 (F := Ideal) V c 6 t : Vec Ideal S1x64 .f32) (ix2 0 s) = (V c main_v2 : S1x64.Idx → EReal) (ix2 0 s) :=
    blk_bi V c t (ix2 0 s)
  show max (Cert.RowSpec.lin _ _ _) 0 = max (Cert.RowSpec.lin _ _ _) 0
  rw [hx, hw, hb]

/-- What step `t` writes back to the third output is block `t` of `max (x·W_i + b_i) 0`. -/
theorem flushed_id (c : Dev nD) (t : Fin cfg0.N) :
    (Gen.dat0 (F := Ideal) V c).flushed 9 t
      = ((cfg0.win 9).blk t).view.read (Elt Ideal) (reluLinArr (V c main_arg0) (V c main_arg6) (V c main_v2)) := by
  show (cfg0.win 9).cut (grid0.coords t) ((Gen.dat0 (F := Ideal) V c).after 9 t) = _
  rw [Gen.after0_9]
  unfold Gen.out0_9
  rw [View.canon_unit_zero hz]
  simp only [View.ld_unit_zero (S := S5000x256) hz, View.ld_unit_zero (S := S256x64) hz, View.ld_unit_zero (S := S1x64) hz]
  obtain ⟨-, -, -, -, -, -, e0, e1⟩ := idx_rows t
  funext j
  show Gen.k0_pay4 (Gen.iblk0 (F := Ideal) V c 0 t) (Gen.iblk0 (F := Ideal) V c 5 t) (Gen.iblk0 (F := Ideal) V c 6 t)
      ((cfg0.win 9).xinj (grid0.coords t) j)
    = reluLinArr (V c main_arg0) (V c main_arg6) (V c main_v2) (((cfg0.win 9).blk t).view.emb j)
  refine id_at V c t _ _ ?_ ?_
  · show win0_9.index t (0 : Fin 2) * 5000 + 1 * (j 0).val = t.val * 5000 + (j 0).val
    rw [e0]; omega
  · show win0_9.index t (1 : Fin 2) * 64 + 1 * (j 1).val = (j 1).val
    rw [e1]; omega

/-- An index of the third output is in step `t`'s block iff each coordinate is in the block's range on its axis. -/
theorem mem_blk_id (t : Fin cfg0.N) (i : S100000x64.Idx) :
    i ∈ ((cfg0.win 9).blk t).view.set
      ↔ ∀ a : Fin 2, win0_9.index t a * S5000x64.size a ≤ (i a).val ∧ (i a).val < win0_9.index t a * S5000x64.size a + S5000x64.size a := by
  show i ∈ ((View.whole main_v3_2).slice (win0_9.rect t)).set ↔ _
  rw [View.set_slice_whole, Rect.mem_set_unit]
  exact Iff.rfl

/-- Row `r` of the third output is written at step `r / 5000`. -/
theorem cover_id (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  have hN : cfg0.N = 20 := Gen.N_0
  have ht : (i 0).val / 5000 < cfg0.N := by rw [hN]; omega
  obtain ⟨-, -, -, -, -, -, e0, e1⟩ := idx_rows ⟨(i 0).val / 5000, ht⟩
  refine ⟨⟨(i 0).val / 5000, ht⟩, Gen.flush0_9 _, ?_⟩
  rw [mem_blk_id]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_9.index ⟨(i 0).val / 5000, ht⟩ (1 : Fin 2) * 64 ≤ (i 1).val
      ∧ (i 1).val < win0_9.index ⟨(i 0).val / 5000, ht⟩ (1 : Fin 2) * 64 + 64
    rw [e1]; omega

/-- THE THIRD OUTPUT after the stage: `max (x·W_i + b_i) 0`. -/
theorem arr9 (c : Dev nD) :
    ((Gen.dat0 (F := Ideal) V c).arrAt 9 cfg0.N : S100000x64.Idx → EReal)
      = fun i => max (Cert.RowSpec.lin (fun k => (V c main_arg0 : S100000x256.Idx → EReal) (ix2 (i 0) k))
          (fun k => (V c main_arg6 : S256x64.Idx → EReal) (ix2 k (i 1))) ((V c main_v2 : S1x64.Idx → EReal) (ix2 0 (i 1)))) 0 :=
  (Gen.dat0 (F := Ideal) V c).arrAt_eq_of_cover 9 (reluLinArr (V c main_arg0) (V c main_arg6) (V c main_v2))
    (fun t _ => flushed_id V c t) cover_id

end Blocks

end Cert.KernelIdeal.ProjValue

end
-- ==== Proof.LibIdealLits.lean ====
import Idealize.ShloMosaic.PureOps.Ideal
import Idealize.ShloMosaic.PureOps.Ideal.Laws

/-!
# Three float literals at the ideal instance

The binary32 patterns of 1, of 16 and of minus infinity denote the extended reals 1, 16 and ⊥.
-/

namespace Cert.StepLaw

open Idealize.ShloMosaic

/-- The binary32 pattern of 1.0 denotes the real number 1. -/
theorem ofBits_one_f32 : Ideal.ofBits .f32 0x3F800000#32 = ((1 : ℝ) : EReal) := by
  simp [Ideal.ofBits, Ideal.ieee]
  norm_num
  rw [← EReal.coe_mul, ← EReal.coe_one]
  congr 1
  norm_num

/-- The binary32 pattern of 16.0 denotes the real number 16. -/
theorem ofBits_sixteen_f32 : Ideal.ofBits .f32 0x41800000#32 = ((16 : ℝ) : EReal) := by
  simp [Ideal.ofBits, Ideal.ieee]
  norm_num
  rw [← EReal.coe_mul]
  congr 1
  norm_num

/-- The binary32 pattern of minus infinity denotes ⊥. -/
theorem ofBits_neginf_f32 : Ideal.ofBits .f32 0xFF800000#32 = (⊥ : EReal) := by
  simp [Ideal.ofBits, Ideal.ieee]

end Cert.StepLaw
-- ==== Proof.LibHostRows.lean ====
/-
  Host operations of a small dense network read at one index, over the extended reals.

  The general dot product contracting the last axis of a matrix with the last axis of a second matrix, or of a
  rank-3 array, is at each result index the sum over the contracted coordinate of the products of the two entries.
  The host's sum and maximum over the columns of a matrix are the finite sum and the fold of the maximum over the
  column coordinate. A broadcast reads the operand at the coordinates it keeps. A slice of one leading block
  followed by the cast that forgets the unit axis reads the array at that block.
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefOps

open Idealize.ShloMosaic Idealize.ShloMosaic.ValueIdx

/-! ## Dot products contracting the last axes -/

/-- An M × K matrix against an N × K matrix, contracting both second axes: entry (a, b) is the sum over c of
    A (a, c) * B (b, c). -/
theorem dotGeneral_rows_apply {M K N : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- An M × K matrix against an N × J × K array, contracting the matrix's second axis with the array's last:
    entry (a, e, r) is the sum over c of A (a, c) * B (e, r, c). -/
theorem dotGeneral_rows3_apply {M K N J : ℕ} {φ₁ φ₂ : FTy}
    (w : DotDims.WF ⟨2, ![M, K]⟩ ⟨3, ![N, J, K]⟩ ⟨3, ![M, N, J]⟩ [1] [2] [0] [0, 1] [] [])
    (prec : Option ContractPrecision) (A : FVec Ideal ⟨2, ![M, K]⟩ φ₁) (B : FVec Ideal ⟨3, ![N, J, K]⟩ φ₂)
    (a : Fin M) (e : Fin N) (r : Fin J) :
    Host.dotGeneral (F := Ideal) (⟨[1], [2], [0], [0, 1], [], [], w⟩ : DotDims _ _ _) prec A B (ix3 a e r)
      = ∑ c : Fin K, A (ix2 a c) * B (ix3 e r c) := by
  simp only [Host.dotGeneral]
  rw [Ideal.dotGeneral_apply,
    ← Equiv.sum_comp (contrEquiv1 (⟨[1], [2], [0], [0, 1], [], [], w⟩ : DotDims _ _ _) K rfl rfl).symm]
  refine Finset.sum_congr rfl fun c _ => ?_
  have c2 := contrEquiv1_symm_val
    (⟨[1], [2], [0], [0, 1], [], [], w⟩ : DotDims ⟨2, ![M, K]⟩ ⟨3, ![N, J, K]⟩ ⟨3, ![M, N, J]⟩) K rfl rfl c
  have l2 : (⟨[1], [2], [0], [0, 1], [], [], w⟩ : DotDims ⟨2, ![M, K]⟩ ⟨3, ![N, J, K]⟩ ⟨3, ![M, N, J]⟩).lhsIdx (ix3 a e r)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [2], [0], [0, 1], [], [], w⟩ : DotDims ⟨2, ![M, K]⟩ ⟨3, ![N, J, K]⟩ ⟨3, ![M, N, J]⟩).rhsIdx (ix3 a e r)
      ((contrEquiv1 _ K rfl rfl).symm c) = ix3 e r c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-! ## Reductions over the columns of a matrix -/

/-- The reduced index a of [N] with k inserted on the dropped second axis is (a, k). -/
theorem lift_cols {N K : Nat} (h : (⟨2, ![N, K]⟩ : Shape).Reduces [1] ⟨1, ![N]⟩) (a : Fin N) (k : Fin K) :
    h.lift (ix1 a) k = ix2 a k := by
  funext b; refine Fin.ext ?_
  match b with
  | ⟨0, _⟩ => rfl
  | ⟨1, _⟩ => rfl

/-- The host's sum over the columns of [N, K] from the initial value 0, read at row a: the sum over k of the
    matrix at (a, k). -/
theorem hostReduceAdd_cols_apply {N K : Nat} {u : Shape} (x : FVec Ideal ⟨2, ![N, K]⟩ .f32)
    (h' : (⟨2, ![N, K]⟩ : Shape).ReducesTo [1] ⟨1, ![N]⟩) (hu : 0 < u.numel) (a : Fin N) :
    Host.reduceAdd (F := Ideal) x (constant (F := Ideal) u .f32 0x00000000#32) h' hu (ix1 a)
      = ∑ k : Fin K, x (ix2 a k) := by
  have h : (⟨2, ![N, K]⟩ : Shape).Reduces [1] ⟨1, ![N]⟩ := ⟨h'.1, Nat.zero_lt_one, h'.2⟩
  show Ideal.hostReduceAdd h' x (Ideal.ofBits .f32 0x00000000#32) (ix1 a) = _
  rw [Ideal.hostReduceAdd_single h' h x _ (ix1 a), Ideal.ofBits_zero_f32, zero_add]
  exact Finset.sum_congr rfl fun k _ => congrArg x (lift_cols h a k)

/-- The host's maximum over the columns of [N, K] from a constant initial value, read at row a: the fold of the
    maximum from that value over k of the matrix at (a, k). -/
theorem hostReduce_max_cols_apply {N K : Nat} {u : Shape} (x : FVec Ideal ⟨2, ![N, K]⟩ .f32) (bits : BitVec 32)
    (h' : (⟨2, ![N, K]⟩ : Shape).ReducesTo [1] ⟨1, ![N]⟩) (hu : 0 < u.numel) (a : Fin N) :
    Host.reduce FloatOps.maximumf x (constant (F := Ideal) u .f32 bits) h' hu (ix1 a)
      = (Finset.univ : Finset (Fin K)).fold max (Ideal.ofBits .f32 bits) (fun k => x (ix2 a k)) := by
  have h : (⟨2, ![N, K]⟩ : Shape).Reduces [1] ⟨1, ![N]⟩ := ⟨h'.1, Nat.zero_lt_one, h'.2⟩
  rw [Host.reduce_eq_fold_single FloatOps.maximumf x _ h' h hu]
  exact congrArg ((Finset.univ : Finset (Fin K)).fold max (Ideal.ofBits .f32 bits))
    (funext fun k => congrArg x (lift_cols h a k))

/-! ## Broadcasts -/

section Broadcast
variable {α : Type}

/-- A column [R, 1] broadcast along both axes of [R, C], read at (p, c): the column's entry of row p. -/
theorem broadcastInDim_col_mat_apply {R C : Nat} (x : (⟨2, ![R, 1]⟩ : Shape).Idx → α)
    (h : (⟨2, ![R, 1]⟩ : Shape).BroadcastsInDim ⟨2, ![R, C]⟩ ![0, 1]) (p : Fin R) (c : Fin C) :
    broadcastInDim ⟨2, ![R, C]⟩ ![0, 1] h x (ix2 p c) = x (ix2 p 0) :=
  broadcastInDim_apply _ h x (ix2 p c) (ix2 p 0) (fun a => match a with
    | ⟨0, _⟩ => by
      show p.val = if R = 1 then 0 else p.val
      have := p.isLt
      split <;> omega
    | ⟨1, _⟩ => rfl)

/-- A vector [R] broadcast along axis 0 of [R, 1], read at (e, z): the vector at e. -/
theorem broadcastInDim_vec_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector [C] broadcast along axis 1 of [1, C], read at (z, c): the vector at c. -/
theorem broadcastInDim_vec_row_apply {C : Nat} (x : (⟨1, ![C]⟩ : Shape).Idx → α)
    (h : (⟨1, ![C]⟩ : Shape).BroadcastsInDim ⟨2, ![1, C]⟩ ![1]) (z : Fin 1) (c : Fin C) :
    broadcastInDim ⟨2, ![1, C]⟩ ![1] h x (ix2 z c) = x (ix1 c) :=
  broadcastInDim_apply _ h x (ix2 z c) (ix1 c) (fun a => match a with
    | ⟨0, _⟩ => by
      show c.val = if C = 1 then 0 else c.val
      have := c.isLt
      split <;> omega)

/-- A row [1, C] broadcast along both axes of [R, C], read at (p, c): the row's entry of column c. -/
theorem broadcastInDim_row_mat_apply {R C : Nat} (x : (⟨2, ![1, C]⟩ : Shape).Idx → α)
    (h : (⟨2, ![1, C]⟩ : Shape).BroadcastsInDim ⟨2, ![R, C]⟩ ![0, 1]) (p : Fin R) (c : Fin C) :
    broadcastInDim ⟨2, ![R, C]⟩ ![0, 1] h x (ix2 p c) = x (ix2 0 c) :=
  broadcastInDim_apply _ h x (ix2 p c) (ix2 0 c) (fun a => match a with
    | ⟨0, _⟩ => rfl
    | ⟨1, _⟩ => by
      show c.val = if C = 1 then 0 else c.val
      have := c.isLt
      split <;> omega)

/-- A scalar broadcast to a vector reads the scalar everywhere. -/
theorem broadcastInDim_scalar_apply {R : Nat} (x : (⟨0, ![]⟩ : Shape).Idx → α)
    (h : (⟨0, ![]⟩ : Shape).BroadcastsInDim ⟨1, ![R]⟩ ![]) (k : (⟨0, ![]⟩ : Shape).Idx) (e : Fin R) :
    broadcastInDim ⟨1, ![R]⟩ ![] h x (ix1 e) = x k :=
  broadcastInDim_apply _ h x (ix1 e) k (fun a => a.elim0)

end Broadcast

/-! ## One leading block of an array, its unit axis forgotten -/

section Block
variable {α : Type}

/-- Block l of a [L, A] matrix, as a vector: entry e is the matrix at (l, e). -/
theorem block2_apply {L A : Nat} (o : Nat) (l : Fin L) (ho : l.val = o) (x : (⟨2, ![L, A]⟩ : Shape).Idx → α)
    (h : (⟨2, ![L, A]⟩ : Shape).Slices ![o, 0] ⟨2, ![1, A]⟩)
    (hc : (⟨2, ![1, A]⟩ : Shape).ShapeCasts ⟨1, ![A]⟩) (e : Fin A) :
    shapeCast ⟨1, ![A]⟩ (extractStridedSlice ⟨2, ![1, A]⟩ ![o, 0] x h) hc (ix1 e) = x (ix2 l e) := by
  refine (shapeCast_apply _ hc (ix1 e) (ix2 0 e) ?_).trans ?_
  · rw [Shape.rowMajor_val_one, Shape.rowMajor_val_two]
    show 0 * A + e.val = e.val
    rw [Nat.zero_mul, Nat.zero_add]
  · exact extractStridedSlice_apply _ x h (ix2 0 e) (ix2 l e) (fun a => match a with
      | ⟨0, _⟩ => by show l.val = o + 0; omega
      | ⟨1, _⟩ => by show e.val = 0 + e.val; omega)

/-- Block l of a [L, A, B] array, as a matrix: entry (e, d) is the array at (l, e, d). -/
theorem block3_apply {L A B : Nat} (o : Nat) (l : Fin L) (ho : l.val = o) (x : (⟨3, ![L, A, B]⟩ : Shape).Idx → α)
    (h : (⟨3, ![L, A, B]⟩ : Shape).Slices ![o, 0, 0] ⟨3, ![1, A, B]⟩)
    (hc : (⟨3, ![1, A, B]⟩ : Shape).ShapeCasts ⟨2, ![A, B]⟩) (e : Fin A) (d : Fin B) :
    shapeCast ⟨2, ![A, B]⟩ (extractStridedSlice ⟨3, ![1, A, B]⟩ ![o, 0, 0] x h) hc (ix2 e d) = x (ix3 l e d) := by
  refine (shapeCast_apply _ hc (ix2 e d) (ix3 0 e d) ?_).trans ?_
  · rw [Shape.rowMajor_val_two, Shape.rowMajor_val_three]
    show (0 * A + e.val) * B + d.val = e.val * B + d.val
    rw [Nat.zero_mul, Nat.zero_add]
  · exact extractStridedSlice_apply _ x h (ix3 0 e d) (ix3 l e d) (fun a => match a with
      | ⟨0, _⟩ => by show l.val = o + 0; omega
      | ⟨1, _⟩ => by show e.val = 0 + e.val; omega
      | ⟨2, _⟩ => by show d.val = 0 + d.val; omega)

/-- Block l of a [L, A, B, C] array, as a rank-3 array: entry (e, r, d) is the array at (l, e, r, d). -/
theorem block4_apply {L A B C : Nat} (o : Nat) (l : Fin L) (ho : l.val = o)
    (x : (⟨4, ![L, A, B, C]⟩ : Shape).Idx → α)
    (h : (⟨4, ![L, A, B, C]⟩ : Shape).Slices ![o, 0, 0, 0] ⟨4, ![1, A, B, C]⟩)
    (hc : (⟨4, ![1, A, B, C]⟩ : Shape).ShapeCasts ⟨3, ![A, B, C]⟩) (e : Fin A) (r : Fin B) (d : Fin C) :
    shapeCast ⟨3, ![A, B, C]⟩ (extractStridedSlice ⟨4, ![1, A, B, C]⟩ ![o, 0, 0, 0] x h) hc (ix3 e r d)
      = x (ix4 l e r d) := by
  refine (shapeCast_apply _ hc (ix3 e r d) (ix4 0 e r d) ?_).trans ?_
  · rw [Shape.rowMajor_val_three, Shape.rowMajor_val_four]
    show ((0 * A + e.val) * B + r.val) * C + d.val = (e.val * B + r.val) * C + d.val
    rw [Nat.zero_mul, Nat.zero_add]
  · exact extractStridedSlice_apply _ x h (ix4 0 e r d) (ix4 l e r d) (fun a => match a with
      | ⟨0, _⟩ => by show l.val = o + 0; omega
      | ⟨1, _⟩ => by show e.val = 0 + e.val; omega
      | ⟨2, _⟩ => by show r.val = 0 + r.val; omega
      | ⟨3, _⟩ => by show d.val = 0 + d.val; omega)

end Block

end Cert.RefOps

end
-- ==== Proof.RefRows.lean ====
/-
  The reference, read one node at a time.

  A node `r` owns one row of each 100000 × 64 stage of the reference, and every stage after the graph
  propagation is computed from that node's rows alone.  This file reads those stages at the coordinates
  `(r, j)`:

    * each of the three linear layers is, entry by entry, a row of `x` against a column of the weight
      matrix plus the bias entry;
    * each rectifier is the maximum with 0;
    * each gate is the logistic function of the inner product of the node's feature row with the gate
      vector, plus the gate bias: the reference spells the logistic function out as 1 / (1 + exp (−z)),
      which is the same function once the literal 1 is read as the number 1;
    * the mixture is the sum of the three rows, each scaled by its gate;
    * the log-softmax subtracts the row's maximum and the logarithm of the row's sum of exponentials; the
      reference takes the maximum with −∞ once more (no change) and starts its sum from 0 (no change).

  The two propagated stages (the scatter results) are not opened: they enter only through the rows
  they contribute.
-/
import proofs.«110213_j52012053954566_1_alg».proof.Proof.RefRead
import proofs.«110213_j52012053954566_1_alg».proof.Proof.RowSpec
import proofs.«110213_j52012053954566_1_alg».proof.Proof.LibIdealLits
import proofs.«110213_j52012053954566_1_alg».proof.Proof.LibHostRows

noncomputable section

namespace Cert.ReferenceIdeal.RefRows

open Cert.ReferenceIdeal Cert.ReferenceIdeal.Gen Cert.ReferenceIdeal.ReadP
open Idealize.ShloMosaic Idealize.ShloMosaic.StableHlo
open Idealize.ShloMosaic.ValueIdx (ix1 ix2)

variable (x0 : (⟨S100000x256, .f32⟩ : BufTy).Contents (Elt Ideal))
variable (x1 : (⟨S2x1600000, .i32⟩ : BufTy).Contents (Elt Ideal))
variable (x2 : (⟨S256x64, .f32⟩ : BufTy).Contents (Elt Ideal))
variable (x3 : (⟨S64, .f32⟩ : BufTy).Contents (Elt Ideal))
variable (x4 : (⟨S256x64, .f32⟩ : BufTy).Contents (Elt Ideal))
variable (x5 : (⟨S64, .f32⟩ : BufTy).Contents (Elt Ideal))
variable (x6 : (⟨S256x64, .f32⟩ : BufTy).Contents (Elt Ideal))
variable (x7 : (⟨S64, .f32⟩ : BufTy).Contents (Elt Ideal))
variable (x8 : (⟨S64x1, .f32⟩ : BufTy).Contents (Elt Ideal))
variable (x9 : (⟨S1, .f32⟩ : BufTy).Contents (Elt Ideal))
variable (x10 : (⟨S64x1, .f32⟩ : BufTy).Contents (Elt Ideal))
variable (x11 : (⟨S1, .f32⟩ : BufTy).Contents (Elt Ideal))
variable (x12 : (⟨S64x1, .f32⟩ : BufTy).Contents (Elt Ideal))
variable (x13 : (⟨S1, .f32⟩ : BufTy).Contents (Elt Ideal))
variable (r : Fin 100000) (j : Fin 64)

/-! ## The three linear layers -/

theorem ref_v35 : val_main_v35 (F := Ideal) x0 x2 x3 (ix2 r j)
    = Cert.RowSpec.lin (fun k => x0 (ix2 r k)) (fun k => x2 (ix2 k j)) (x3 (ix1 j)) := by
  have el : ∀ k : Fin 256, lidx_main_v32 (ix2 r j) k = ix2 r k := fun k => funext fun a => Fin.ext (by match a with | ⟨0, _⟩ => rfl | ⟨1, _⟩ => rfl)
  have er : ∀ k : Fin 256, ridx_main_v32 (ix2 r j) k = ix2 k j := fun k => funext fun a => Fin.ext (by match a with | ⟨0, _⟩ => rfl | ⟨1, _⟩ => rfl)
  have eb : idx_main_v33 (idx_main_v34 (ix2 r j)) = ix1 j := funext fun a => Fin.ext (by match a with | ⟨0, _⟩ => rfl)
  rw [val_main_v35_apply, val_main_v32_apply, val_main_v34_apply, val_main_v33_apply, eb]
  simp only [el, er, Ideal.addf_def]
  rfl

theorem ref_v54 : val_main_v54 (F := Ideal) x0 x4 x5 (ix2 r j)
    = Cert.RowSpec.lin (fun k => x0 (ix2 r k)) (fun k => x4 (ix2 k j)) (x5 (ix1 j)) := by
  have el : ∀ k : Fin 256, lidx_main_v51 (ix2 r j) k = ix2 r k := fun k => funext fun a => Fin.ext (by match a with | ⟨0, _⟩ => rfl | ⟨1, _⟩ => rfl)
  have er : ∀ k : Fin 256, ridx_main_v51 (ix2 r j) k = ix2 k j := fun k => funext fun a => Fin.ext (by match a with | ⟨0, _⟩ => rfl | ⟨1, _⟩ => rfl)
  have eb : idx_main_v52 (idx_main_v53 (ix2 r j)) = ix1 j := funext fun a => Fin.ext (by match a with | ⟨0, _⟩ => rfl)
  rw [val_main_v54_apply, val_main_v51_apply, val_main_v53_apply, val_main_v52_apply, eb]
  simp only [el, er, Ideal.addf_def]
  rfl

/-- The identity branch: the linear layer followed by the rectifier. -/
theorem ref_v73 : val_main_v73 (F := Ideal) x0 x6 x7 (ix2 r j)
    = max (Cert.RowSpec.lin (fun k => x0 (ix2 r k)) (fun k => x6 (ix2 k j)) (x7 (ix1 j))) 0 := by
  have el : ∀ k : Fin 256, lidx_main_v69 (ix2 r j) k = ix2 r k := fun k => funext fun a => Fin.ext (by match a with | ⟨0, _⟩ => rfl | ⟨1, _⟩ => rfl)
  have er : ∀ k : Fin 256, ridx_main_v69 (ix2 r j) k = ix2 k j := fun k => funext fun a => Fin.ext (by match a with | ⟨0, _⟩ => rfl | ⟨1, _⟩ => rfl)
  have eb : idx_main_v70 (idx_main_v71 (ix2 r j)) = ix1 j := funext fun a => Fin.ext (by match a with | ⟨0, _⟩ => rfl)
  rw [val_main_v73_apply, val_main_v72_apply, val_main_v69_apply, val_main_v71_apply, val_main_v70_apply, eb,
    val_main_call3_v0_apply, val_main_call3_cst_apply]
  simp only [el, er, Ideal.addf_def, Ideal.maximumf_def, Ideal.ofBits_def, Ideal.ofBits_zero_f32]
  rfl

/-! ## The two rectifiers over the propagated stages -/

/-- The high-pass branch: the linear layer minus its propagation, rectified. -/
theorem ref_v50 (i : S100000x64.Idx) : val_main_v50 (F := Ideal) x0 x1 x2 x3 i
    = max (val_main_v35 (F := Ideal) x0 x2 x3 i - val_main_v48 (F := Ideal) x0 x1 x2 x3 i) 0 := by
  rw [val_main_v50_apply, val_main_v49_apply, val_main_call1_v0_apply, val_main_call1_cst_apply]
  simp only [Ideal.maximumf_def, Ideal.subf_def, Ideal.ofBits_def, Ideal.ofBits_zero_f32]

/-- The low-pass branch: the propagated linear layer, rectified. -/
theorem ref_v68 (i : S100000x64.Idx) : val_main_v68 (F := Ideal) x0 x1 x4 x5 i
    = max (val_main_v67 (F := Ideal) x0 x1 x4 x5 i) 0 := by
  rw [val_main_v68_apply, val_main_call2_v0_apply, val_main_call2_cst_apply]
  simp only [Ideal.maximumf_def, Ideal.ofBits_def, Ideal.ofBits_zero_f32]

/-! ## The three gates -/

theorem ref_v84 : val_main_v84 (F := Ideal) x0 x1 x2 x3 x8 x9 (ix1 r)
    = Cert.RowSpec.gate (fun k => val_main_v50 (F := Ideal) x0 x1 x2 x3 (ix2 r k)) (fun k => x8 (ix2 k 0)) (x9 (ix1 0)) := by
  have e0 : idx_main_v84 (ix1 r) = ix2 r (0 : Fin 1) := funext fun a => Fin.ext (by
    match a with | ⟨0, _⟩ => exact Nat.div_one _ | ⟨1, _⟩ => rfl)
  have el : ∀ k : Fin 64, lidx_main_v74 (ix2 r (0 : Fin 1)) k = ix2 r k := fun k => funext fun a => Fin.ext (by match a with | ⟨0, _⟩ => rfl | ⟨1, _⟩ => rfl)
  have er : ∀ k : Fin 64, ridx_main_v74 (ix2 r (0 : Fin 1)) k = ix2 k (0 : Fin 1) := fun k => funext fun a => Fin.ext (by match a with | ⟨0, _⟩ => rfl | ⟨1, _⟩ => rfl)
  have eb : idx_main_v75 (idx_main_v76 (ix2 r (0 : Fin 1))) = ix1 (0 : Fin 1) := funext fun a => Fin.ext (by match a with | ⟨0, _⟩ => rfl)
  rw [val_main_v84_apply, e0, val_main_v83_apply, val_main_v82_apply, val_main_cst_14_apply,
    val_main_v81_apply, val_main_v80_apply, val_main_cst_13_apply, val_main_v79_apply,
    val_main_v78_apply, val_main_v77_apply, val_main_v74_apply, val_main_v76_apply, val_main_v75_apply, eb]
  simp only [el, er, Ideal.hostDivf_def, Ideal.addf_def, Ideal.hostUnary_exp_def, Ideal.hostNegf_def, Ideal.negf_def,
    Ideal.ofBits_def, Cert.StepLaw.ofBits_one_f32, EReal.coe_one]
  rfl

theorem ref_v95 : val_main_v95 (F := Ideal) x0 x1 x4 x5 x10 x11 (ix1 r)
    = Cert.RowSpec.gate (fun k => val_main_v68 (F := Ideal) x0 x1 x4 x5 (ix2 r k)) (fun k => x10 (ix2 k 0)) (x11 (ix1 0)) := by
  have e0 : idx_main_v95 (ix1 r) = ix2 r (0 : Fin 1) := funext fun a => Fin.ext (by
    match a with | ⟨0, _⟩ => exact Nat.div_one _ | ⟨1, _⟩ => rfl)
  have el : ∀ k : Fin 64, lidx_main_v85 (ix2 r (0 : Fin 1)) k = ix2 r k := fun k => funext fun a => Fin.ext (by match a with | ⟨0, _⟩ => rfl | ⟨1, _⟩ => rfl)
  have er : ∀ k : Fin 64, ridx_main_v85 (ix2 r (0 : Fin 1)) k = ix2 k (0 : Fin 1) := fun k => funext fun a => Fin.ext (by match a with | ⟨0, _⟩ => rfl | ⟨1, _⟩ => rfl)
  have eb : idx_main_v86 (idx_main_v87 (ix2 r (0 : Fin 1))) = ix1 (0 : Fin 1) := funext fun a => Fin.ext (by match a with | ⟨0, _⟩ => rfl)
  rw [val_main_v95_apply, e0, val_main_v94_apply, val_main_v93_apply, val_main_cst_16_apply,
    val_main_v92_apply, val_main_v91_apply, val_main_cst_15_apply, val_main_v90_apply,
    val_main_v89_apply, val_main_v88_apply, val_main_v85_apply, val_main_v87_apply, val_main_v86_apply, eb]
  simp only [el, er, Ideal.hostDivf_def, Ideal.addf_def, Ideal.hostUnary_exp_def, Ideal.hostNegf_def, Ideal.negf_def,
    Ideal.ofBits_def, Cert.StepLaw.ofBits_one_f32, EReal.coe_one]
  rfl

theorem ref_v106 : val_main_v106 (F := Ideal) x0 x6 x7 x12 x13 (ix1 r)
    = Cert.RowSpec.gate (fun k => val_main_v73 (F := Ideal) x0 x6 x7 (ix2 r k)) (fun k => x12 (ix2 k 0)) (x13 (ix1 0)) := by
  have e0 : idx_main_v106 (ix1 r) = ix2 r (0 : Fin 1) := funext fun a => Fin.ext (by
    match a with | ⟨0, _⟩ => exact Nat.div_one _ | ⟨1, _⟩ => rfl)
  have el : ∀ k : Fin 64, lidx_main_v96 (ix2 r (0 : Fin 1)) k = ix2 r k := fun k => funext fun a => Fin.ext (by match a with | ⟨0, _⟩ => rfl | ⟨1, _⟩ => rfl)
  have er : ∀ k : Fin 64, ridx_main_v96 (ix2 r (0 : Fin 1)) k = ix2 k (0 : Fin 1) := fun k => funext fun a => Fin.ext (by match a with | ⟨0, _⟩ => rfl | ⟨1, _⟩ => rfl)
  have eb : idx_main_v97 (idx_main_v98 (ix2 r (0 : Fin 1))) = ix1 (0 : Fin 1) := funext fun a => Fin.ext (by match a with | ⟨0, _⟩ => rfl)
  rw [val_main_v106_apply, e0, val_main_v105_apply, val_main_v104_apply, val_main_cst_18_apply,
    val_main_v103_apply, val_main_v102_apply, val_main_cst_17_apply, val_main_v101_apply,
    val_main_v100_apply, val_main_v99_apply, val_main_v96_apply, val_main_v98_apply, val_main_v97_apply, eb]
  simp only [el, er, Ideal.hostDivf_def, Ideal.addf_def, Ideal.hostUnary_exp_def, Ideal.hostNegf_def, Ideal.negf_def,
    Ideal.ofBits_def, Cert.StepLaw.ofBits_one_f32, EReal.coe_one]
  rfl

/-! ## The gated sum -/

/-- The mixture at (r, j): each branch's entry scaled by the node's gate for that branch. -/
theorem ref_v117 : val_main_v117 (F := Ideal) x0 x1 x2 x3 x4 x5 x6 x7 x8 x9 x10 x11 x12 x13 (ix2 r j)
    = Cert.RowSpec.mix (fun k => val_main_v50 (F := Ideal) x0 x1 x2 x3 (ix2 r k))
        (fun k => val_main_v68 (F := Ideal) x0 x1 x4 x5 (ix2 r k)) (fun k => val_main_v73 (F := Ideal) x0 x6 x7 (ix2 r k))
        (fun k => x8 (ix2 k 0)) (fun k => x10 (ix2 k 0)) (fun k => x12 (ix2 k 0))
        (x9 (ix1 0)) (x11 (ix1 0)) (x13 (ix1 0)) j := by
  have eh : idx_main_v107 (idx_main_v108 (ix2 r j)) = ix1 r := funext fun a => Fin.ext (by match a with | ⟨0, _⟩ => rfl)
  have el : idx_main_v110 (idx_main_v111 (ix2 r j)) = ix1 r := funext fun a => Fin.ext (by match a with | ⟨0, _⟩ => rfl)
  have ei : idx_main_v114 (idx_main_v115 (ix2 r j)) = ix1 r := funext fun a => Fin.ext (by match a with | ⟨0, _⟩ => rfl)
  rw [val_main_v117_apply, val_main_v113_apply,
    val_main_v109_apply, val_main_v108_apply, val_main_v107_apply, eh, ref_v84,
    val_main_v112_apply, val_main_v111_apply, val_main_v110_apply, el, ref_v95,
    val_main_v116_apply, val_main_v115_apply, val_main_v114_apply, ei, ref_v106]
  simp only [Ideal.addf_def, Ideal.mulf_def]
  rfl

/-! ## The log-softmax along the features -/

/-- The row maximum the reference subtracts: its fold from −∞, once more maximised with −∞. -/
theorem ref_rowmax : val_main_call4_v4 (F := Ideal) x0 x1 x2 x3 x4 x5 x6 x7 x8 x9 x10 x11 x12 x13 (ix2 r j)
    = Cert.RowSpec.rowMax (fun k => val_main_v117 (F := Ideal) x0 x1 x2 x3 x4 x5 x6 x7 x8 x9 x10 x11 x12 x13 (ix2 r k)) := by
  have e : idx_main_call4_v3 (idx_main_call4_v4 (ix2 r j)) = ix1 r := funext fun a => Fin.ext (by match a with | ⟨0, _⟩ => rfl)
  rw [val_main_call4_v4_apply, val_main_call4_v3_apply, e, val_main_call4_v2_apply, val_main_call4_v1_apply,
    val_main_call4_cst_0_apply]
  unfold val_main_call4_v0 val_main_call4_cst
  generalize val_main_v117 (F := Ideal) x0 x1 x2 x3 x4 x5 x6 x7 x8 x9 x10 x11 x12 x13 = o
  rw [Cert.RefOps.hostReduce_max_cols_apply]
  simp only [Ideal.maximumf_def, Ideal.ofBits_def, Cert.StepLaw.ofBits_neginf_f32]
  exact max_eq_right bot_le

/-- The shifted entry: the mixture minus its row maximum. -/
theorem ref_shift : val_main_call4_v5 (F := Ideal) x0 x1 x2 x3 x4 x5 x6 x7 x8 x9 x10 x11 x12 x13 (ix2 r j)
    = val_main_v117 (F := Ideal) x0 x1 x2 x3 x4 x5 x6 x7 x8 x9 x10 x11 x12 x13 (ix2 r j)
      - Cert.RowSpec.rowMax (fun k => val_main_v117 (F := Ideal) x0 x1 x2 x3 x4 x5 x6 x7 x8 x9 x10 x11 x12 x13 (ix2 r k)) := by
  rw [val_main_call4_v5_apply, ref_rowmax]
  rfl

/-- The logarithm of the row's sum of exponentials of the shifted entries (the sum starts from 0). -/
theorem ref_logsum : val_main_call4_v10 (F := Ideal) x0 x1 x2 x3 x4 x5 x6 x7 x8 x9 x10 x11 x12 x13 (ix2 r j)
    = Ideal.log (∑ k : Fin 64, Ideal.exp (val_main_v117 (F := Ideal) x0 x1 x2 x3 x4 x5 x6 x7 x8 x9 x10 x11 x12 x13 (ix2 r k)
        - Cert.RowSpec.rowMax (fun k' => val_main_v117 (F := Ideal) x0 x1 x2 x3 x4 x5 x6 x7 x8 x9 x10 x11 x12 x13 (ix2 r k')))) := by
  have e8 : idx_main_call4_v8 (idx_main_call4_v10 (ix2 r j)) = ix1 r := funext fun a => Fin.ext (by match a with | ⟨0, _⟩ => rfl)
  have e7 : ∀ k : Fin 64, idx_main_call4_v7 (ix1 r) k = ix2 r k := fun k => funext fun a => Fin.ext (by match a with | ⟨0, _⟩ => rfl | ⟨1, _⟩ => rfl)
  rw [val_main_call4_v10_apply, val_main_call4_v9_apply, val_main_call4_v8_apply, e8, val_main_call4_v7_apply,
    val_main_call4_cst_1_apply]
  simp only [e7, val_main_call4_v6_apply, ref_shift, Ideal.hostUnary_log_def, Ideal.hostUnary_exp_def,
    Ideal.ofBits_def, Ideal.ofBits_zero_f32, zero_add]

/-! ## The output row -/

/-- The reference's result at (r, j) is the specification's output row of node `r`, built from the
    node's three feature rows, at feature `j`. -/
theorem ref_out : val_main_v118 (F := Ideal) x0 x1 x2 x3 x4 x5 x6 x7 x8 x9 x10 x11 x12 x13 (ix2 r j)
    = Cert.RowSpec.rowOut (fun k => val_main_v50 (F := Ideal) x0 x1 x2 x3 (ix2 r k))
        (fun k => val_main_v68 (F := Ideal) x0 x1 x4 x5 (ix2 r k)) (fun k => val_main_v73 (F := Ideal) x0 x6 x7 (ix2 r k))
        (fun k => x8 (ix2 k 0)) (fun k => x10 (ix2 k 0)) (fun k => x12 (ix2 k 0))
        (x9 (ix1 0)) (x11 (ix1 0)) (x13 (ix1 0)) j := by
  rw [val_main_v118_apply, ref_shift, ref_logsum]
  simp only [ref_v117, Ideal.subf_def]
  rfl

end Cert.ReferenceIdeal.RefRows

end
-- ==== Proof.BridgeLinear.lean ====
/-
  The first launch's three arrays are the reference's three linear stages.

  Entry (r, j) of each is one row of x against one column of a weight matrix, plus a bias entry (the identity
  branch then takes the maximum with zero): the launch computes it block by block, the reference in one product, and
  both are the same finite sum. Stated for ANY buffer contents at the launch's entry whose argument arrays are the
  given x, W and whose one-row bias array holds the given bias vector.
-/
import proofs.«110213_j52012053954566_1_alg».proof.Proof.ProjValue
import proofs.«110213_j52012053954566_1_alg».proof.Proof.RefRows

noncomputable section

open Idealize.ShloMosaic Idealize.ShloMosaic.TcCoe Idealize.SL.Sem
open Idealize.ShloMosaic.ValueIdx

namespace Cert.Bridge

open Cert.KernelIdeal Cert.KernelIdeal.Gen
open Cert.ReferenceIdeal.ReadP

variable (V : (c : Dev nD) → (b : Ref sig .tc) → Buf (Elt Ideal) ((c : Thread nD τ).loc b)) (c : Dev nD)
variable (x0 : FVec Ideal S100000x256 .f32) (w : FVec Ideal S256x64 .f32) (b : FVec Ideal S64 .f32)

/-- The high-pass linear map: the launch's first output array is the reference's `x·W_hp + b_hp`. -/
theorem hp_arr (h0 : (V c main_arg0 : S100000x256.Idx → EReal) = x0) (hw : (V c main_arg2 : S256x64.Idx → EReal) = w)
    (hb : ∀ j : Fin 64, (V c main_v0 : S1x64.Idx → EReal) (ix2 0 j) = b (ix1 j)) :
    ((Gen.dat0 (F := Ideal) V c).arrAt 7 cfg0.N : S100000x64.Idx → EReal) = val_main_v35 (F := Ideal) x0 w b := by
  rw [Cert.KernelIdeal.ProjValue.arr7 V c]
  funext i
  obtain ⟨r, j, rfl⟩ : ∃ (r : Fin 100000) (j : Fin 64), i = ix2 r j := ⟨i 0, i 1, eq_ix2 i⟩
  rw [Cert.ReferenceIdeal.RefRows.ref_v35 x0 w b r j, h0, hw]
  exact congrArg (Cert.RowSpec.lin (fun k => x0 (ix2 r k)) (fun k => w (ix2 k j))) (hb j)

/-- The low-pass linear map: the second output array is the reference's `x·W_lp + b_lp`. -/
theorem lp_arr (h0 : (V c main_arg0 : S100000x256.Idx → EReal) = x0) (hw : (V c main_arg4 : S256x64.Idx → EReal) = w)
    (hb : ∀ j : Fin 64, (V c main_v1 : S1x64.Idx → EReal) (ix2 0 j) = b (ix1 j)) :
    ((Gen.dat0 (F := Ideal) V c).arrAt 8 cfg0.N : S100000x64.Idx → EReal) = val_main_v54 (F := Ideal) x0 w b := by
  rw [Cert.KernelIdeal.ProjValue.arr8 V c]
  funext i
  obtain ⟨r, j, rfl⟩ : ∃ (r : Fin 100000) (j : Fin 64), i = ix2 r j := ⟨i 0, i 1, eq_ix2 i⟩
  rw [Cert.ReferenceIdeal.RefRows.ref_v54 x0 w b r j, h0, hw]
  exact congrArg (Cert.RowSpec.lin (fun k => x0 (ix2 r k)) (fun k => w (ix2 k j))) (hb j)

/-- The identity branch: the third output array is the reference's `max (x·W_i + b_i) 0`. -/
theorem id_arr (h0 : (V c main_arg0 : S100000x256.Idx → EReal) = x0) (hw : (V c main_arg6 : S256x64.Idx → EReal) = w)
    (hb : ∀ j : Fin 64, (V c main_v2 : S1x64.Idx → EReal) (ix2 0 j) = b (ix1 j)) :
    ((Gen.dat0 (F := Ideal) V c).arrAt 9 cfg0.N : S100000x64.Idx → EReal) = val_main_v73 (F := Ideal) x0 w b := by
  rw [Cert.KernelIdeal.ProjValue.arr9 V c]
  funext i
  obtain ⟨r, j, rfl⟩ : ∃ (r : Fin 100000) (j : Fin 64), i = ix2 r j := ⟨i 0, i 1, eq_ix2 i⟩
  rw [Cert.ReferenceIdeal.RefRows.ref_v73 x0 w b r j, h0, hw]
  exact congrArg (fun t => max (Cert.RowSpec.lin (fun k => x0 (ix2 r k)) (fun k => w (ix2 k j)) t) 0) (hb j)

end Cert.Bridge

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.CombineValue.lean ====
/-
  The second kernel's output array as one function of the arrays it reads.

  A block of 5000 rows is computed row by row: from the row's entries of A (the projected features), of B and C (their two
  graph propagations) and of the identity features, the three feature rows max (A − B) 0, max C 0 and the identity row are
  formed; each row is weighed by the logistic function of its inner product with a gate vector plus a gate bias; the three
  weighed rows are added and the sum is normalised by a log-softmax along its 64 entries. Nothing in a row's result depends
  on another row, and block t holds the rows 5000·t … 5000·t + 4999 of every windowed array, so the twenty blocks written
  back are the restrictions of ONE function of the row index and the feature index, and together they cover the array.
-/
import proofs.«110213_j52012053954566_1_alg».proof.Proof.Gen.KernelIdeal.Frame
import proofs.«110213_j52012053954566_1_alg».proof.Proof.RowSpec
import proofs.«110213_j52012053954566_1_alg».proof.Proof.LibKeepdims
import proofs.«110213_j52012053954566_1_alg».proof.Proof.LibIdealLits
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.CombineValue

open Idealize.ShloMosaic Idealize.ShloMosaic.TcCoe Idealize.ShloMosaic.ValueIdx
open Idealize.ShloMosaic.Pipeline (Dat)
open Cert.KernelIdeal Cert.KernelIdeal.Gen Cert.LibKeepdims

/-! ## Operations read at an index -/

/-- The logistic function of a vector, entry by entry. -/
theorem logistic_apply {s : Shape} {φ : FTy} (a : FVec Ideal s φ) (i : s.Idx) : logistic a i = Ideal.logistic (a i) := rfl
/-- The exponential of a vector, entry by entry. -/
theorem exp_apply {s : Shape} {φ : FTy} (a : FVec Ideal s φ) (i : s.Idx) : exp a i = Ideal.exp (a i) := rfl
/-- The logarithm of a vector, entry by entry. -/
theorem log_apply {s : Shape} {φ : FTy} (a : FVec Ideal s φ) (i : s.Idx) : log a i = Ideal.log (a i) := rfl

/-- A single entry broadcast to a column reads that entry in every row. -/
theorem broadcastTo_11_a1_apply {α : Type} {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  have hu : u = 0 := Subsingleton.elim _ _
  subst hu
  exact broadcastTo_1b_ab_apply v h p 0

/-- The sum of each row's entries (the accumulator the zero word), read at a row. -/
theorem laneSum_apply {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_axis1 src 0x00000000#32 h hφ hacc i

/-- The largest of each row's entries (the accumulator the word of −∞), read at a row. -/
theorem laneMax_apply {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0xFF800000#32 : BitVec 32) = 0xFF800000#32) (i : Fin a) :
    multiReduction .maximumf [1] ⟨1, ![a]⟩ src 0xFF800000#32 h hφ hacc (ix1 i)
      = (Finset.univ : Finset (Fin b)).fold max ⊥ (fun k => src (ix2 i k)) :=
  (multiReduction_maximumf_axis1 src 0xFF800000#32 h hφ hacc i).trans
    (congrArg (fun z => (Finset.univ : Finset (Fin b)).fold max z (fun k => src (ix2 i k))) Cert.StepLaw.ofBits_neginf_f32)

/-- The zero offsets of a whole-block access. -/
theorem hz : (![0, 0] : Fin 2 → Nat) = fun _ => 0 := funext fun a => by fin_cases a <;> rfl

/-! ## The body's arithmetic at a row and a feature -/

section Payload

/-- The last stage: from the three feature rows' vectors, the identity gate's vector and bias, the low-pass gate's bias, the
    high-pass gate (a column) and the low-pass gate's inner products (one per row), the log-softmax of the gated sum. -/
theorem pay1_apply (v7 v10 v12 : FVec Ideal S5000x64 .f32) (v18 : FVec Ideal S1x64 .f32) (v22 v24 : FVec Ideal S1x1 .f32)
    (v31 : FVec Ideal S5000x1 .f32) (v34 : FVec Ideal S5000 .f32) (p : Fin 5000) (q : Fin 64) :
    k1_pay1 v7 v10 v12 v18 v22 v24 v31 v34 (ix2 p q)
      = Cert.RowSpec.logSoftmax (fun j => (v31 (ix2 p (0 : Fin 1)) * v10 (ix2 p j)
            + Ideal.logistic (v34 (ix1 p) + v22 (ix2 (0 : Fin 1) (0 : Fin 1))) * v12 (ix2 p j))
          + Ideal.logistic ((∑ k : Fin 64, v7 (ix2 p k) * v18 (ix2 (0 : Fin 1) k)) + v24 (ix2 (0 : Fin 1) (0 : Fin 1))) * v7 (ix2 p j)) q := by
  unfold k1_pay1
  repeat (first
    | rw [laneSum_apply]
    | rw [laneMax_apply]
    | simp only [subf_apply, addf_apply, mulf_apply, logistic_apply, exp_apply, log_apply, broadcastTo_a1_ab_apply,
        broadcastTo_1b_ab_apply, broadcastTo_11_a1_apply, shapeCast_a_a1_apply])
  unfold Cert.RowSpec.logSoftmax Cert.RowSpec.rowMax
  rfl

end Payload

section Block
variable (x0 x1 x2 x3 : Vec Ideal S5000x64 .f32) (x4 x6 x8 : Vec Ideal S1x64 .f32) (x5 x7 x9 : Vec Ideal S1x1 .f32)

/-- The identity row is the loaded block. -/
theorem pay2_eq : k1_pay2 (F := Ideal) x3 = x3 := by
  unfold k1_pay2; exact shapeCast_self _ _

/-- The gate vectors and the gate biases are the loaded blocks. -/
theorem pay5_eq : k1_pay5 (F := Ideal) x8 = x8 := by
  unfold k1_pay5; exact shapeCast_self _ _
theorem pay6_eq : k1_pay6 (F := Ideal) x7 = x7 := by
  unfold k1_pay6; exact shapeCast_self _ _
theorem pay7_eq : k1_pay7 (F := Ideal) x9 = x9 := by
  unfold k1_pay7; exact shapeCast_self _ _

/-- The high-pass row: the positive part of A − B. -/
theorem pay3_apply (i : S5000x64.Idx) : k1_pay3 (F := Ideal) x0 x1 i = max (x0 i - x1 i) 0 := by
  unfold k1_pay3
  simp only [shapeCast_self]
  show max (x0 i - x1 i) (Ideal.ofBits .f32 0x00000000#32) = _
  rw [Ideal.ofBits_zero_f32]

/-- The low-pass row: the positive part of C. -/
theorem pay4_apply (i : S5000x64.Idx) : k1_pay4 (F := Ideal) x2 i = max (x2 i) 0 := by
  unfold k1_pay4
  simp only [shapeCast_self]
  show max (x2 i) (Ideal.ofBits .f32 0x00000000#32) = _
  rw [Ideal.ofBits_zero_f32]

/-- The low-pass row's inner product with its gate vector, one per row. -/
theorem pay9_apply (p : Fin 5000) :
    k1_pay9 (F := Ideal) x2 x6 (ix1 p) = ∑ k : Fin 64, max (x2 (ix2 p k)) 0 * x6 (ix2 (0 : Fin 1) k) := by
  unfold k1_pay9
  rw [laneSum_apply]
  simp only [mulf_apply, broadcastTo_1b_ab_apply, shapeCast_self, pay4_apply]

/-- The high-pass gate, one per row (a column). -/
theorem pay8_apply (p : Fin 5000) (u : Fin 1) :
    k1_pay8 (F := Ideal) x0 x1 x4 x5 (ix2 p u)
      = Ideal.logistic ((∑ k : Fin 64, max (x0 (ix2 p k) - x1 (ix2 p k)) 0 * x4 (ix2 (0 : Fin 1) k)) + x5 (ix2 (0 : Fin 1) (0 : Fin 1))) := by
  unfold k1_pay8
  simp only [logistic_apply, addf_apply, shapeCast_a_a1_apply, broadcastTo_11_a1_apply, shapeCast_self]
  rw [laneSum_apply]
  simp only [mulf_apply, broadcastTo_1b_ab_apply, pay3_apply]

/-- WHAT THE BODY LEAVES in the output's staging buffer, at row p and feature q of the block: the row specification at
    the rows p of the four big blocks and the six gate parameters. -/
theorem out_apply (p : Fin 5000) (q : Fin 64) :
    out1_10 (F := Ideal) x0 x1 x2 x3 x4 x5 x6 x7 x8 x9 (ix2 p q)
      = Cert.RowSpec.rowOut
          (fun k => max (x0 (ix2 p k) - x1 (ix2 p k)) 0) (fun k => max (x2 (ix2 p k)) 0) (fun k => x3 (ix2 p k))
          (fun k => x4 (ix2 (0 : Fin 1) k)) (fun k => x6 (ix2 (0 : Fin 1) k)) (fun k => x8 (ix2 (0 : Fin 1) k))
          (x5 (ix2 (0 : Fin 1) (0 : Fin 1))) (x7 (ix2 (0 : Fin 1) (0 : Fin 1))) (x9 (ix2 (0 : Fin 1) (0 : Fin 1))) q := by
  unfold out1_10
  rw [View.canon_unit_zero hz]
  simp only [View.ld_unit_zero (S := S5000x64) hz, View.ld_unit_zero (S := S1x64) hz, View.ld_unit_zero (S := S1x1) hz]
  rw [pay1_apply]
  simp only [pay2_eq, pay5_eq, pay6_eq, pay7_eq, pay3_apply, pay4_apply, pay8_apply, pay9_apply]
  rfl

end Block

/-! ## From the blocks to the array -/

section Array

/-- Where each window's block sits at point t: the four row-blocked inputs and the output at row block t, the six gate
    parameters whole (decided once over the twenty points). -/
theorem idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem idx10 : ∀ t : Fin cfg1.N, win1_10.index t (0 : Fin 2) = t.val ∧ win1_10.index t (1 : Fin 2) = 0 :=
  (by decide +kernel : ∀ t : Fin grid1.N, win1_10.index t (0 : Fin 2) = t.val ∧ win1_10.index t (1 : Fin 2) = 0)
theorem idx4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

variable (V : (c : Dev nD) → (b : Ref sig .tc) → Buf (Elt Ideal) ((c : Thread nD τ).loc b)) (c : Dev nD)

/-! Each input block read at a row and a feature is its array read at the block's first row plus the row. -/

theorem iblk0_apply (t : Fin cfg1.N) (p : Fin 5000) (r : Fin 100000) (hr : r.val = 5000 * t.val + p.val) (k : Fin 64) :
    (iblk1 V c 0 t : Vec Ideal S5000x64 .f32) (ix2 p k) = (V c main_v3_0 : S100000x64.Idx → EReal) (ix2 r k) := by
  show V c main_v3_0 (((cfg1.win 0).blk t).view.emb (ix2 p k)) = V c main_v3_0 (ix2 r k)
  refine congrArg (V c main_v3_0) (funext fun a => Fin.ext ?_)
  obtain ⟨e0, e1⟩ := idx0 t
  match a with
  | ⟨0, _⟩ => show win1_0.index t (0 : Fin 2) * 5000 + 1 * p.val = r.val; omega
  | ⟨1, _⟩ => show win1_0.index t (1 : Fin 2) * 64 + 1 * k.val = k.val; omega

theorem iblk1_apply (t : Fin cfg1.N) (p : Fin 5000) (r : Fin 100000) (hr : r.val = 5000 * t.val + p.val) (k : Fin 64) :
    (iblk1 V c 1 t : Vec Ideal S5000x64 .f32) (ix2 p k) = (V c main_v48 : S100000x64.Idx → EReal) (ix2 r k) := by
  show V c main_v48 (((cfg1.win 1).blk t).view.emb (ix2 p k)) = V c main_v48 (ix2 r k)
  refine congrArg (V c main_v48) (funext fun a => Fin.ext ?_)
  obtain ⟨e0, e1⟩ := idx1 t
  match a with
  | ⟨0, _⟩ => show win1_1.index t (0 : Fin 2) * 5000 + 1 * p.val = r.val; omega
  | ⟨1, _⟩ => show win1_1.index t (1 : Fin 2) * 64 + 1 * k.val = k.val; omega

theorem iblk2_apply (t : Fin cfg1.N) (p : Fin 5000) (r : Fin 100000) (hr : r.val = 5000 * t.val + p.val) (k : Fin 64) :
    (iblk1 V c 2 t : Vec Ideal S5000x64 .f32) (ix2 p k) = (V c main_v61 : S100000x64.Idx → EReal) (ix2 r k) := by
  show V c main_v61 (((cfg1.win 2).blk t).view.emb (ix2 p k)) = V c main_v61 (ix2 r k)
  refine congrArg (V c main_v61) (funext fun a => Fin.ext ?_)
  obtain ⟨e0, e1⟩ := idx2 t
  match a with
  | ⟨0, _⟩ => show win1_2.index t (0 : Fin 2) * 5000 + 1 * p.val = r.val; omega
  | ⟨1, _⟩ => show win1_2.index t (1 : Fin 2) * 64 + 1 * k.val = k.val; omega

theorem iblk3_apply (t : Fin cfg1.N) (p : Fin 5000) (r : Fin 100000) (hr : r.val = 5000 * t.val + p.val) (k : Fin 64) :
    (iblk1 V c 3 t : Vec Ideal S5000x64 .f32) (ix2 p k) = (V c main_v3_2 : S100000x64.Idx → EReal) (ix2 r k) := by
  show V c main_v3_2 (((cfg1.win 3).blk t).view.emb (ix2 p k)) = V c main_v3_2 (ix2 r k)
  refine congrArg (V c main_v3_2) (funext fun a => Fin.ext ?_)
  obtain ⟨e0, e1⟩ := idx3 t
  match a with
  | ⟨0, _⟩ => show win1_3.index t (0 : Fin 2) * 5000 + 1 * p.val = r.val; omega
  | ⟨1, _⟩ => show win1_3.index t (1 : Fin 2) * 64 + 1 * k.val = k.val; omega

theorem iblk4_apply (t : Fin cfg1.N) (k : Fin 64) :
    (iblk1 V c 4 t : Vec Ideal S1x64 .f32) (ix2 (0 : Fin 1) k) = (V c main_v62 : S1x64.Idx → EReal) (ix2 (0 : Fin 1) k) := by
  show V c main_v62 (((cfg1.win 4).blk t).view.emb (ix2 (0 : Fin 1) k)) = V c main_v62 (ix2 (0 : Fin 1) k)
  refine congrArg (V c main_v62) (funext fun a => Fin.ext ?_)
  obtain ⟨e0, e1⟩ := idx4 t
  match a with
  | ⟨0, _⟩ => show win1_4.index t (0 : Fin 2) * 1 + 1 * 0 = 0; omega
  | ⟨1, _⟩ => show win1_4.index t (1 : Fin 2) * 64 + 1 * k.val = k.val; omega

theorem iblk6_apply (t : Fin cfg1.N) (k : Fin 64) :
    (iblk1 V c 6 t : Vec Ideal S1x64 .f32) (ix2 (0 : Fin 1) k) = (V c main_v63 : S1x64.Idx → EReal) (ix2 (0 : Fin 1) k) := by
  show V c main_v63 (((cfg1.win 6).blk t).view.emb (ix2 (0 : Fin 1) k)) = V c main_v63 (ix2 (0 : Fin 1) k)
  refine congrArg (V c main_v63) (funext fun a => Fin.ext ?_)
  obtain ⟨e0, e1⟩ := idx6 t
  match a with
  | ⟨0, _⟩ => show win1_6.index t (0 : Fin 2) * 1 + 1 * 0 = 0; omega
  | ⟨1, _⟩ => show win1_6.index t (1 : Fin 2) * 64 + 1 * k.val = k.val; omega

theorem iblk8_apply (t : Fin cfg1.N) (k : Fin 64) :
    (iblk1 V c 8 t : Vec Ideal S1x64 .f32) (ix2 (0 : Fin 1) k) = (V c main_v64 : S1x64.Idx → EReal) (ix2 (0 : Fin 1) k) := by
  show V c main_v64 (((cfg1.win 8).blk t).view.emb (ix2 (0 : Fin 1) k)) = V c main_v64 (ix2 (0 : Fin 1) k)
  refine congrArg (V c main_v64) (funext fun a => Fin.ext ?_)
  obtain ⟨e0, e1⟩ := idx8 t
  match a with
  | ⟨0, _⟩ => show win1_8.index t (0 : Fin 2) * 1 + 1 * 0 = 0; omega
  | ⟨1, _⟩ => show win1_8.index t (1 : Fin 2) * 64 + 1 * k.val = k.val; omega

theorem iblk5_apply (t : Fin cfg1.N) :
    (iblk1 V c 5 t : Vec Ideal S1x1 .f32) (ix2 (0 : Fin 1) (0 : Fin 1)) = (V c main_v65 : S1x1.Idx → EReal) (ix2 (0 : Fin 1) (0 : Fin 1)) := by
  show V c main_v65 (((cfg1.win 5).blk t).view.emb (ix2 (0 : Fin 1) (0 : Fin 1))) = V c main_v65 (ix2 (0 : Fin 1) (0 : Fin 1))
  refine congrArg (V c main_v65) (funext fun a => Fin.ext ?_)
  obtain ⟨e0, e1⟩ := idx5 t
  match a with
  | ⟨0, _⟩ => show win1_5.index t (0 : Fin 2) * 1 + 1 * 0 = 0; omega
  | ⟨1, _⟩ => show win1_5.index t (1 : Fin 2) * 1 + 1 * 0 = 0; omega

theorem iblk7_apply (t : Fin cfg1.N) :
    (iblk1 V c 7 t : Vec Ideal S1x1 .f32) (ix2 (0 : Fin 1) (0 : Fin 1)) = (V c main_v66 : S1x1.Idx → EReal) (ix2 (0 : Fin 1) (0 : Fin 1)) := by
  show V c main_v66 (((cfg1.win 7).blk t).view.emb (ix2 (0 : Fin 1) (0 : Fin 1))) = V c main_v66 (ix2 (0 : Fin 1) (0 : Fin 1))
  refine congrArg (V c main_v66) (funext fun a => Fin.ext ?_)
  obtain ⟨e0, e1⟩ := idx7 t
  match a with
  | ⟨0, _⟩ => show win1_7.index t (0 : Fin 2) * 1 + 1 * 0 = 0; omega
  | ⟨1, _⟩ => show win1_7.index t (1 : Fin 2) * 1 + 1 * 0 = 0; omega

theorem iblk9_apply (t : Fin cfg1.N) :
    (iblk1 V c 9 t : Vec Ideal S1x1 .f32) (ix2 (0 : Fin 1) (0 : Fin 1)) = (V c main_v67 : S1x1.Idx → EReal) (ix2 (0 : Fin 1) (0 : Fin 1)) := by
  show V c main_v67 (((cfg1.win 9).blk t).view.emb (ix2 (0 : Fin 1) (0 : Fin 1))) = V c main_v67 (ix2 (0 : Fin 1) (0 : Fin 1))
  refine congrArg (V c main_v67) (funext fun a => Fin.ext ?_)
  obtain ⟨e0, e1⟩ := idx9 t
  match a with
  | ⟨0, _⟩ => show win1_9.index t (0 : Fin 2) * 1 + 1 * 0 = 0; omega
  | ⟨1, _⟩ => show win1_9.index t (1 : Fin 2) * 1 + 1 * 0 = 0; omega

/-- The output array as one function: at row r and feature j, the row specification at row r of the four inputs. -/
def outArr : S100000x64.Idx → EReal := fun i =>
  Cert.RowSpec.rowOut
    (fun k => @max EReal _ (@HSub.hSub EReal EReal EReal _ ((V c main_v3_0 : S100000x64.Idx → EReal) (ix2 (i 0) k)) ((V c main_v48 : S100000x64.Idx → EReal) (ix2 (i 0) k))) 0)
    (fun k => @max EReal _ ((V c main_v61 : S100000x64.Idx → EReal) (ix2 (i 0) k)) 0)
    (fun k => (V c main_v3_2 : S100000x64.Idx → EReal) (ix2 (i 0) k))
    (fun k => (V c main_v62 : S1x64.Idx → EReal) (ix2 0 k)) (fun k => (V c main_v63 : S1x64.Idx → EReal) (ix2 0 k)) (fun k => (V c main_v64 : S1x64.Idx → EReal) (ix2 0 k))
    ((V c main_v65 : S1x1.Idx → EReal) (ix2 0 0)) ((V c main_v66 : S1x1.Idx → EReal) (ix2 0 0)) ((V c main_v67 : S1x1.Idx → EReal) (ix2 0 0)) (i 1)

/-- WHAT POINT t WRITES BACK is block t of that function. -/
theorem flushed_eq (t : Fin cfg1.N) :
    (dat1 V c).flushed 10 t = ((cfg1.win 10).blk t).view.read (Elt Ideal) (outArr V c) := by
  show (cfg1.win 10).cut (grid1.coords t) ((dat1 V c).after 10 t) = _
  rw [after1_10]
  funext j
  obtain ⟨p, q, rfl⟩ : ∃ (p : Fin 5000) (q : Fin 64), j = ix2 p q := ⟨j 0, j 1, eq_ix2 j⟩
  have hN : cfg1.N = 20 := N_1
  have ht : t.val < 20 := hN ▸ t.isLt
  obtain ⟨r, hr⟩ : ∃ r : Fin 100000, r.val = 5000 * t.val + p.val := ⟨⟨5000 * t.val + p.val, by omega⟩, rfl⟩
  have hemb : ((cfg1.win 10).blk t).view.emb (ix2 p q) = ix2 r q := by
    funext a; apply Fin.ext
    obtain ⟨e0, e1⟩ := idx10 t
    match a with
    | ⟨0, _⟩ => show win1_10.index t (0 : Fin 2) * 5000 + 1 * p.val = r.val; omega
    | ⟨1, _⟩ => show win1_10.index t (1 : Fin 2) * 64 + 1 * q.val = q.val; omega
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p q)
      = outArr V c (((cfg1.win 10).blk t).view.emb (ix2 p q))
  refine ((out_apply (iblk1 V c 0 t) (iblk1 V c 1 t) (iblk1 V c 2 t) (iblk1 V c 3 t) (iblk1 V c 4 t) (iblk1 V c 6 t) (iblk1 V c 8 t) (iblk1 V c 5 t) (iblk1 V c 7 t) (iblk1 V c 9 t) p q).trans ?_).trans (congrArg (outArr V c) hemb.symm)
  simp only [iblk0_apply V c t p r hr, iblk1_apply V c t p r hr, iblk2_apply V c t p r hr, iblk3_apply V c t p r hr,
    iblk4_apply V c t, iblk5_apply V c t, iblk6_apply V c t, iblk7_apply V c t, iblk8_apply V c t, iblk9_apply V c t]
  rfl

/-- An index of the array is in point t's block iff each coordinate is in the block's range on its axis. -/
theorem mem_blk (t : Fin cfg1.N) (i : S100000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v68).slice (win1_10.rect t)).set ↔ _
  rw [View.set_slice_whole, Rect.mem_set_unit]
  exact Iff.rfl

/-- Row r lies in the block of point r / 5000: the twenty blocks cover the array. -/
theorem cover (i : S100000x64.Idx) : ∃ t : Fin cfg1.N, (cfg1.win 10).flush t = true ∧ i ∈ ((cfg1.win 10).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_10 t, ?_⟩
  rw [mem_blk]
  obtain ⟨e0, e1⟩ := idx10 t
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 64 ≤ (i 1).val ∧ (i 1).val < win1_10.index t (1 : Fin 2) * 64 + 64; omega

/-- THE OUTPUT ARRAY after the twenty write-backs: row by row, the row specification of the rows of the arrays the region
    found. -/
theorem arr10 : ((Gen.dat1 (F := Ideal) V c).arrAt 10 cfg1.N : S100000x64.Idx → EReal) = fun i =>
    Cert.RowSpec.rowOut
      (fun k => @max EReal _ (@HSub.hSub EReal EReal EReal _ ((V c main_v3_0 : S100000x64.Idx → EReal) (ix2 (i 0) k)) ((V c main_v48 : S100000x64.Idx → EReal) (ix2 (i 0) k))) 0)
      (fun k => @max EReal _ ((V c main_v61 : S100000x64.Idx → EReal) (ix2 (i 0) k)) 0)
      (fun k => (V c main_v3_2 : S100000x64.Idx → EReal) (ix2 (i 0) k))
      (fun k => (V c main_v62 : S1x64.Idx → EReal) (ix2 0 k)) (fun k => (V c main_v63 : S1x64.Idx → EReal) (ix2 0 k)) (fun k => (V c main_v64 : S1x64.Idx → EReal) (ix2 0 k))
      ((V c main_v65 : S1x1.Idx → EReal) (ix2 0 0)) ((V c main_v66 : S1x1.Idx → EReal) (ix2 0 0)) ((V c main_v67 : S1x1.Idx → EReal) (ix2 0 0)) (i 1) :=
  (Gen.dat1 V c).arrAt_eq_of_cover 10 (outArr V c) (fun t _ => flushed_eq V c t) (cover)

/-- The same, with the function named. -/
theorem arr10_eq_outArr : ((Gen.dat1 (F := Ideal) V c).arrAt 10 cfg1.N : S100000x64.Idx → EReal) = outArr V c :=
  arr10 V c

end Array

end Cert.KernelIdeal.CombineValue

end
-- ==== Proof.BridgeCombine.lean ====
/-
  The second launch's output array is the reference's last stage.

  The launch reads four node-by-feature arrays (A, P A, P C, D), three gate vectors and three gate biases, and writes,
  row by row, the log-softmax of the gated sum of max (A − P A) 0, max (P C) 0 and D. The reference's last stage is the
  same row formula of ITS three rectified branches. So if the launch's four arrays are the reference's stages
  x·W_hp + b_hp, its propagation, the propagated x·W_lp + b_lp and the rectified identity branch, and the gate vectors
  and biases are the given ones re-laid as a row and as a 1×1 array, the output array is the reference's result.
-/
import proofs.«110213_j52012053954566_1_alg».proof.Proof.CombineValue
import proofs.«110213_j52012053954566_1_alg».proof.Proof.RefRows

noncomputable section

open Idealize.ShloMosaic Idealize.ShloMosaic.TcCoe Idealize.SL.Sem
open Idealize.ShloMosaic.ValueIdx

namespace Cert.Bridge

open Cert.KernelIdeal Cert.KernelIdeal.Gen
open Cert.ReferenceIdeal.ReadP

variable (V : (c : Dev nD) → (b : Ref sig .tc) → Buf (Elt Ideal) ((c : Thread nD τ).loc b)) (c : Dev nD)
variable (x0 : FVec Ideal S100000x256 .f32) (x1 : IVec S2x1600000 32)
  (x2 : FVec Ideal S256x64 .f32) (x3 : FVec Ideal S64 .f32) (x4 : FVec Ideal S256x64 .f32) (x5 : FVec Ideal S64 .f32)
  (x6 : FVec Ideal S256x64 .f32) (x7 : FVec Ideal S64 .f32) (x8 : FVec Ideal S64x1 .f32) (x9 : FVec Ideal S1 .f32)
  (x10 : FVec Ideal S64x1 .f32) (x11 : FVec Ideal S1 .f32) (x12 : FVec Ideal S64x1 .f32) (x13 : FVec Ideal S1 .f32)

theorem out_arr
    (hA : (V c main_v3_0 : S100000x64.Idx → EReal) = val_main_v35 (F := Ideal) x0 x2 x3)
    (hB : (V c main_v48 : S100000x64.Idx → EReal) = val_main_v48 (F := Ideal) x0 x1 x2 x3)
    (hC : (V c main_v61 : S100000x64.Idx → EReal) = val_main_v67 (F := Ideal) x0 x1 x4 x5)
    (hD : (V c main_v3_2 : S100000x64.Idx → EReal) = val_main_v73 (F := Ideal) x0 x6 x7)
    (hwh : ∀ k : Fin 64, (V c main_v62 : S1x64.Idx → EReal) (ix2 0 k) = x8 (ix2 k 0))
    (hwl : ∀ k : Fin 64, (V c main_v63 : S1x64.Idx → EReal) (ix2 0 k) = x10 (ix2 k 0))
    (hwi : ∀ k : Fin 64, (V c main_v64 : S1x64.Idx → EReal) (ix2 0 k) = x12 (ix2 k 0))
    (hbh : (V c main_v65 : S1x1.Idx → EReal) (ix2 0 0) = x9 (ix1 0))
    (hbl : (V c main_v66 : S1x1.Idx → EReal) (ix2 0 0) = x11 (ix1 0))
    (hbi : (V c main_v67 : S1x1.Idx → EReal) (ix2 0 0) = x13 (ix1 0)) :
    ((Gen.dat1 (F := Ideal) V c).arrAt 10 cfg1.N : S100000x64.Idx → EReal)
      = val_main_v118 (F := Ideal) x0 x1 x2 x3 x4 x5 x6 x7 x8 x9 x10 x11 x12 x13 := by
  rw [Cert.KernelIdeal.CombineValue.arr10 V c]
  refine funext fun (i : S100000x64.Idx) => ?_
  refine Eq.trans ?_ (congrArg (val_main_v118 (F := Ideal) x0 x1 x2 x3 x4 x5 x6 x7 x8 x9 x10 x11 x12 x13) (eq_ix2 i).symm)
  refine Eq.trans ?_ (Cert.ReferenceIdeal.RefRows.ref_out x0 x1 x2 x3 x4 x5 x6 x7 x8 x9 x10 x11 x12 x13 (i 0) (i 1)).symm
  simp only [hA, hB, hC, hD, hwh, hwl, hwi, hbh, hbl, hbi, Cert.ReferenceIdeal.RefRows.ref_v50,
    Cert.ReferenceIdeal.RefRows.ref_v68]

end Cert.Bridge

end
-- ==== Proof.Bridge.lean ====
/-
  The kernel's result array is the reference's last stage of the kernel's own arguments.

  Follow the kernel's memory from the launch: the first launch is entered with the arguments as launched and the three
  biases re-laid as one-row arrays, so its three output arrays are the reference's stages x·W_hp + b_hp, x·W_lp + b_lp
  and max (x·W_i + b_i) 0. The host operations between the launches propagate the first two over the graph; that
  propagation is ONE composite of host operations of the edge list and a matrix, and the reference's propagation
  stages are literally the same composite (of its own, equal, shape records) of its own linear stages. The second
  launch is entered with those four arrays and the gate vectors and biases re-laid as rows and 1×1 arrays, so its
  output array is the reference's result.
-/
import proofs.«110213_j52012053954566_1_alg».proof.Proof.KernelRun
import proofs.«110213_j52012053954566_1_alg».proof.Proof.HostGlue
import proofs.«110213_j52012053954566_1_alg».proof.Proof.BridgeLinear
import proofs.«110213_j52012053954566_1_alg».proof.Proof.BridgeCombine

noncomputable section

open Idealize.ShloMosaic Idealize.ShloMosaic.TcCoe Idealize.SL.Sem
open Idealize.ShloMosaic.ValueIdx

namespace Cert.Bridge

open Cert.KernelIdeal Cert.KernelIdeal.Gen
open Cert.ReferenceIdeal.ReadP

/-- The reference's propagation of its high-pass linear stage is the kernel's host propagation of that stage: the
    same operations in the same order, over shape records that are equal field by field. -/
theorem prop_hp (x0 : FVec Ideal S100000x256 .f32) (x1 : IVec S2x1600000 32) (x2 : FVec Ideal S256x64 .f32)
    (x3 : FVec Ideal S64 .f32) :
    val_main_v48 (F := Ideal) x0 x1 x2 x3 = Cert.KernelIdeal.HostGlue.prop x1 (val_main_v35 (F := Ideal) x0 x2 x3) := rfl

/-- The same for the low-pass stage (the reference recomputes the index wrap and the broadcast edge weights; the
    terms are identical). -/
theorem prop_lp (x0 : FVec Ideal S100000x256 .f32) (x1 : IVec S2x1600000 32) (x4 : FVec Ideal S256x64 .f32)
    (x5 : FVec Ideal S64 .f32) :
    val_main_v67 (F := Ideal) x0 x1 x4 x5 = Cert.KernelIdeal.HostGlue.prop x1 (val_main_v54 (F := Ideal) x0 x4 x5) := rfl

variable (m : (ℓ : Loc nD τ sig) → Buf (Elt Ideal) ℓ) (ρ : Dev nD → PrngReg) (c : Dev nD)

/-- The first launch's output arrays, from the launch memory. -/
theorem hp_launch : ((Gen.dat0 (F := Ideal) (Gen.V1 m ρ) c).arrAt 7 cfg0.N : S100000x64.Idx → EReal)
    = val_main_v35 (F := Ideal) (m ((c : Thread nD τ).loc main_arg0)) (m ((c : Thread nD τ).loc main_arg2)) (m ((c : Thread nD τ).loc main_arg3)) :=
  hp_arr (Gen.V1 m ρ) c _ _ _ (Cert.KernelIdeal.HostGlue.V1_arg0 m ρ c) (Cert.KernelIdeal.HostGlue.V1_arg2 m ρ c)
    (Cert.KernelIdeal.HostGlue.V1_v0 m ρ c)

theorem lp_launch : ((Gen.dat0 (F := Ideal) (Gen.V1 m ρ) c).arrAt 8 cfg0.N : S100000x64.Idx → EReal)
    = val_main_v54 (F := Ideal) (m ((c : Thread nD τ).loc main_arg0)) (m ((c : Thread nD τ).loc main_arg4)) (m ((c : Thread nD τ).loc main_arg5)) :=
  lp_arr (Gen.V1 m ρ) c _ _ _ (Cert.KernelIdeal.HostGlue.V1_arg0 m ρ c) (Cert.KernelIdeal.HostGlue.V1_arg4 m ρ c)
    (Cert.KernelIdeal.HostGlue.V1_v1 m ρ c)

theorem id_launch : ((Gen.dat0 (F := Ideal) (Gen.V1 m ρ) c).arrAt 9 cfg0.N : S100000x64.Idx → EReal)
    = val_main_v73 (F := Ideal) (m ((c : Thread nD τ).loc main_arg0)) (m ((c : Thread nD τ).loc main_arg6)) (m ((c : Thread nD τ).loc main_arg7)) :=
  id_arr (Gen.V1 m ρ) c _ _ _ (Cert.KernelIdeal.HostGlue.V1_arg0 m ρ c) (Cert.KernelIdeal.HostGlue.V1_arg6 m ρ c)
    (Cert.KernelIdeal.HostGlue.V1_v2 m ρ c)

/-- The result buffer at the end of the kernel's run is the reference's last stage of the kernel's arguments. -/
theorem kernel_result :
    (Gen.W6 (F := Ideal) m ρ c (Proc.devRef .tc main_v68) : S100000x64.Idx → EReal)
      = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.KernelIdeal.KernelRun.result_eq m ρ c]
  refine out_arr (Gen.V5 m ρ) c _ _ _ _ _ _ _ _ _ _ _ _ _ _ ?_ ?_ ?_ ?_
    (Cert.KernelIdeal.HostGlue.V5_v62 m ρ c) (Cert.KernelIdeal.HostGlue.V5_v63 m ρ c) (Cert.KernelIdeal.HostGlue.V5_v64 m ρ c)
    (Cert.KernelIdeal.HostGlue.V5_v65 m ρ c) (Cert.KernelIdeal.HostGlue.V5_v66 m ρ c) (Cert.KernelIdeal.HostGlue.V5_v67 m ρ c)
  · exact (Cert.KernelIdeal.HostGlue.V5_v3_0 m ρ c).trans (hp_launch m ρ c)
  · refine (Cert.KernelIdeal.HostGlue.V5_v48 m ρ c).trans ?_
    rw [hp_launch m ρ c]
    exact (prop_hp _ _ _ _).symm
  · refine (Cert.KernelIdeal.HostGlue.V5_v61 m ρ c).trans ?_
    rw [lp_launch m ρ c]
    exact (prop_lp _ _ _ _).symm
  · exact (Cert.KernelIdeal.HostGlue.V5_v3_2 m ρ c).trans (id_launch m ρ c)

end Cert.Bridge

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.RefRunHand.lean ====
/-
  The reference program, run in nine consecutive parts.

  The reference is one straight line of host operations. Read in order it computes
    1. from the edge list, the two index columns (sources and targets, each closed with the self loops) and the weight of
       every edge, the product of the two end points' inverse square-root degrees;
    2. the high-pass row block  max (A − propagate A) 0  with  A = x·W_hp + b_hp;
    3. the low-pass row block   max (propagate (x·W_lp + b_lp)) 0;
    4. the identity row block   max (x·W_i + b_i) 0;
    5.–7. the three logistic gates, one per row block;
    8. the gated sum of the three row blocks;
    9. the log-softmax along the features.
  Only a few values cross from one part to the next: the two index columns and the edge weights out of part 1 (used by
  parts 2 and 3), one row block out of each of parts 2, 3 and 4 (used by the gates and the sum), one gate out of each of
  parts 5, 6 and 7, and the sum out of part 8. So the contents after the whole line are the contents after part 9 from
  those after part 8, and so on back; each part is evaluated from ARBITRARY incoming contents `W`, under the hypotheses
  that the values it reads are the stages they should be, and yields the stage it hands on. No part writes an argument,
  nor a value an earlier part still to come reads.
-/
import proofs.«110213_j52012053954566_1_alg».proof.Proof.RefRun
import proofs.«110213_j52012053954566_1_alg».proof.Proof.RefRead
import proofs.«110213_j52012053954566_1_alg».proof.Proof.LibAfterAppend
import proofs.«110213_j52012053954566_1_alg».proof.Proof.LibTypedRef
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The nine parts -/

/-- Part 1: the two index columns and the edge weights. -/
abbrev p1 : List (HloOp τ sig (Elt F)) := (ops (F := F)).take 43
/-- Part 2: the high-pass row block. -/
abbrev p2 : List (HloOp τ sig (Elt F)) := ((ops (F := F)).drop 43).take 24
/-- Part 3: the low-pass row block. -/
abbrev p3 : List (HloOp τ sig (Elt F)) := ((ops (F := F)).drop 67).take 23
/-- Part 4: the identity row block. -/
abbrev p4 : List (HloOp τ sig (Elt F)) := ((ops (F := F)).drop 90).take 7
/-- Part 5: the high-pass gate. -/
abbrev p5 : List (HloOp τ sig (Elt F)) := ((ops (F := F)).drop 97).take 13
/-- Part 6: the low-pass gate. -/
abbrev p6 : List (HloOp τ sig (Elt F)) := ((ops (F := F)).drop 110).take 13
/-- Part 7: the identity gate. -/
abbrev p7 : List (HloOp τ sig (Elt F)) := ((ops (F := F)).drop 123).take 13
/-- Part 8: the gated sum. -/
abbrev p8 : List (HloOp τ sig (Elt F)) := ((ops (F := F)).drop 136).take 11
/-- Part 9: the log-softmax. -/
abbrev p9 : List (HloOp τ sig (Elt F)) := (ops (F := F)).drop 147

/-- The line is its nine parts in order. -/
theorem ops_split : (ops (F := F)) = p1 ++ (p2 ++ (p3 ++ (p4 ++ (p5 ++ (p6 ++ (p7 ++ (p8 ++ p9))))))) := rfl

/-- So the contents after the line are part 9's from part 8's from … from part 1's. -/
theorem after_ops (V : Valuation τ sig (Elt F)) :
    after (ops (F := F)) V = after p9 (after p8 (after p7 (after p6 (after p5 (after p4 (after p3 (after p2 (after p1 V)))))))) :=
  (congrArg (fun l => after l V) (ops_split (F := F))).trans (by
    rw [Cert.LibAfterAppend.after_append, Cert.LibAfterAppend.after_append, Cert.LibAfterAppend.after_append,
      Cert.LibAfterAppend.after_append, Cert.LibAfterAppend.after_append, Cert.LibAfterAppend.after_append,
      Cert.LibAfterAppend.after_append, Cert.LibAfterAppend.after_append])

/-- Spells a part out as the list of its operations. -/
macro "open_part" : tactic =>
  `(tactic| simp only [p1, p2, p3, p4, p5, p6, p7, p8, p9, ops, List.drop_succ_cons, List.drop_zero, List.take_succ_cons, List.take_zero])

/-- The argument buffers. -/
abbrev argRefs : List (Ref sig .tc) :=
  [main_arg0, main_arg1, main_arg2, main_arg3, main_arg4, main_arg5, main_arg6, main_arg7, main_arg8, main_arg9, main_arg10, main_arg11, main_arg12, main_arg13]

/-! ## Part 1 -/

/-- The source column. -/
theorem p1_v3 (W : Valuation τ sig (Elt F)) :
    after (p1 (F := F)) W (Proc.devRef .tc main_v3) = val_main_v3 (F := F) (W (Proc.devRef .tc main_arg1)) := by
  open_part
  after_results_simp
  rfl

/-- The target column. -/
theorem p1_v6 (W : Valuation τ sig (Elt F)) :
    after (p1 (F := F)) W (Proc.devRef .tc main_v6) = val_main_v6 (F := F) (W (Proc.devRef .tc main_arg1)) := by
  open_part
  after_results_simp
  rfl

/-- The edge weights. -/
theorem p1_v31 (W : Valuation τ sig (Elt F)) :
    after (p1 (F := F)) W (Proc.devRef .tc main_v31) = val_main_v31 (F := F) (W (Proc.devRef .tc main_arg1)) := by
  open_part
  after_results_simp
  rfl

/-- Part 1 writes no argument. -/
theorem p1_keep (W : Valuation τ sig (Elt F)) :
    ∀ r ∈ (argRefs : List (Ref sig .tc)), after (p1 (F := F)) W (Proc.devRef .tc r) = W (Proc.devRef .tc r) := by
  open_part
  intro r hr
  repeat (cases hr with | head => (after_results_simp <;> rfl) | tail _ hr => ?_)
  exact nomatch hr

/-! ## Part 2 -/

/-- The high-pass row block, from the columns and weights part 1 hands on. -/
theorem p2_v50 (W : Valuation τ sig (Elt F)) (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F))
    (h0 : W (Proc.devRef .tc main_arg0) = x0)
    (h2 : W (Proc.devRef .tc main_arg2) = x2)
    (h3 : W (Proc.devRef .tc main_arg3) = x3)
    (hv3 : W (Proc.devRef .tc main_v3) = val_main_v3 (F := F) x1)
    (hv6 : W (Proc.devRef .tc main_v6) = val_main_v6 (F := F) x1)
    (hv31 : W (Proc.devRef .tc main_v31) = val_main_v31 (F := F) x1) :
    after (p2 (F := F)) W (Proc.devRef .tc main_v50) = val_main_v50 (F := F) x0 x1 x2 x3 := by
  open_part
  after_results_simp
  simp only [h0, h2, h3, hv3, hv6, hv31]
  rfl

/-- Part 2 writes no argument and none of the values part 1 hands on. -/
theorem p2_keep (W : Valuation τ sig (Elt F)) :
    ∀ r ∈ (main_v3 :: main_v6 :: main_v31 :: argRefs : List (Ref sig .tc)), after (p2 (F := F)) W (Proc.devRef .tc r) = W (Proc.devRef .tc r) := by
  open_part
  intro r hr
  repeat (cases hr with | head => (after_results_simp <;> rfl) | tail _ hr => ?_)
  exact nomatch hr

/-! ## Part 3 -/

/-- The low-pass row block, from the columns and weights part 1 hands on. -/
theorem p3_v68 (W : Valuation τ sig (Elt F)) (x0 : (⟨S100000x256, .f32⟩ : BufTy).Contents (Elt F)) (x1 : (⟨S2x1600000, .i32⟩ : BufTy).Contents (Elt F)) (x4 : (⟨S256x64, .f32⟩ : BufTy).Contents (Elt F)) (x5 : (⟨S64, .f32⟩ : BufTy).Contents (Elt F))
    (h0 : W (Proc.devRef .tc main_arg0) = x0)
    (h4 : W (Proc.devRef .tc main_arg4) = x4)
    (h5 : W (Proc.devRef .tc main_arg5) = x5)
    (hv3 : W (Proc.devRef .tc main_v3) = val_main_v3 (F := F) x1)
    (hv6 : W (Proc.devRef .tc main_v6) = val_main_v6 (F := F) x1)
    (hv31 : W (Proc.devRef .tc main_v31) = val_main_v31 (F := F) x1) :
    after (p3 (F := F)) W (Proc.devRef .tc main_v68) = val_main_v68 (F := F) x0 x1 x4 x5 := by
  open_part
  after_results_simp
  simp only [h0, h4, h5, hv3, hv6, hv31]
  rfl

/-- Part 3 writes no argument and not the high-pass row block. -/
theorem p3_keep (W : Valuation τ sig (Elt F)) :
    ∀ r ∈ (main_v50 :: argRefs : List (Ref sig .tc)), after (p3 (F := F)) W (Proc.devRef .tc r) = W (Proc.devRef .tc r) := by
  open_part
  intro r hr
  repeat (cases hr with | head => (after_results_simp <;> rfl) | tail _ hr => ?_)
  exact nomatch hr

/-! ## Part 4 -/

/-- The identity row block. -/
theorem p4_v73 (W : Valuation τ sig (Elt F)) (x0 : (⟨S100000x256, .f32⟩ : BufTy).Contents (Elt F)) (x6 : (⟨S256x64, .f32⟩ : BufTy).Contents (Elt F)) (x7 : (⟨S64, .f32⟩ : BufTy).Contents (Elt F))
    (h0 : W (Proc.devRef .tc main_arg0) = x0)
    (h6 : W (Proc.devRef .tc main_arg6) = x6)
    (h7 : W (Proc.devRef .tc main_arg7) = x7) :
    after (p4 (F := F)) W (Proc.devRef .tc main_v73) = val_main_v73 (F := F) x0 x6 x7 := by
  open_part
  after_results_simp
  simp only [h0, h6, h7]
  rfl

/-- Part 4 writes no argument and neither of the two row blocks before it. -/
theorem p4_keep (W : Valuation τ sig (Elt F)) :
    ∀ r ∈ (main_v50 :: main_v68 :: argRefs : List (Ref sig .tc)), after (p4 (F := F)) W (Proc.devRef .tc r) = W (Proc.devRef .tc r) := by
  open_part
  intro r hr
  repeat (cases hr with | head => (after_results_simp <;> rfl) | tail _ hr => ?_)
  exact nomatch hr

/-! ## Part 5 -/

/-- The high-pass gate, from the high-pass row block. -/
theorem p5_v84 (W : Valuation τ sig (Elt F)) (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x8 : (⟨S64x1, .f32⟩ : BufTy).Contents (Elt F)) (x9 : (⟨S1, .f32⟩ : BufTy).Contents (Elt F))
    (h8 : W (Proc.devRef .tc main_arg8) = x8)
    (h9 : W (Proc.devRef .tc main_arg9) = x9)
    (hv50 : W (Proc.devRef .tc main_v50) = val_main_v50 (F := F) x0 x1 x2 x3) :
    after (p5 (F := F)) W (Proc.devRef .tc main_v84) = val_main_v84 (F := F) x0 x1 x2 x3 x8 x9 := by
  open_part
  after_results_simp
  simp only [h8, h9, hv50]
  rfl

/-- Part 5 writes no argument and none of the three row blocks. -/
theorem p5_keep (W : Valuation τ sig (Elt F)) :
    ∀ r ∈ (main_v50 :: main_v68 :: main_v73 :: argRefs : List (Ref sig .tc)), after (p5 (F := F)) W (Proc.devRef .tc r) = W (Proc.devRef .tc r) := by
  open_part
  intro r hr
  repeat (cases hr with | head => (after_results_simp <;> rfl) | tail _ hr => ?_)
  exact nomatch hr

/-! ## Part 6 -/

/-- The low-pass gate, from the low-pass row block. -/
theorem p6_v95 (W : Valuation τ sig (Elt F)) (x0 : (⟨S100000x256, .f32⟩ : BufTy).Contents (Elt F)) (x1 : (⟨S2x1600000, .i32⟩ : BufTy).Contents (Elt F)) (x4 : (⟨S256x64, .f32⟩ : BufTy).Contents (Elt F)) (x5 : (⟨S64, .f32⟩ : BufTy).Contents (Elt F)) (x10 : (⟨S64x1, .f32⟩ : BufTy).Contents (Elt F)) (x11 : (⟨S1, .f32⟩ : BufTy).Contents (Elt F))
    (h10 : W (Proc.devRef .tc main_arg10) = x10)
    (h11 : W (Proc.devRef .tc main_arg11) = x11)
    (hv68 : W (Proc.devRef .tc main_v68) = val_main_v68 (F := F) x0 x1 x4 x5) :
    after (p6 (F := F)) W (Proc.devRef .tc main_v95) = val_main_v95 (F := F) x0 x1 x4 x5 x10 x11 := by
  open_part
  after_results_simp
  simp only [h10, h11, hv68]
  rfl

/-- Part 6 writes no argument, none of the three row blocks and not the first gate. -/
theorem p6_keep (W : Valuation τ sig (Elt F)) :
    ∀ r ∈ (main_v50 :: main_v68 :: main_v73 :: main_v84 :: argRefs : List (Ref sig .tc)), after (p6 (F := F)) W (Proc.devRef .tc r) = W (Proc.devRef .tc r) := by
  open_part
  intro r hr
  repeat (cases hr with | head => (after_results_simp <;> rfl) | tail _ hr => ?_)
  exact nomatch hr

/-! ## Part 7 -/

/-- The identity gate, from the identity row block. -/
theorem p7_v106 (W : Valuation τ sig (Elt F)) (x0 : (⟨S100000x256, .f32⟩ : BufTy).Contents (Elt F)) (x6 : (⟨S256x64, .f32⟩ : BufTy).Contents (Elt F)) (x7 : (⟨S64, .f32⟩ : BufTy).Contents (Elt F)) (x12 : (⟨S64x1, .f32⟩ : BufTy).Contents (Elt F)) (x13 : (⟨S1, .f32⟩ : BufTy).Contents (Elt F))
    (h12 : W (Proc.devRef .tc main_arg12) = x12)
    (h13 : W (Proc.devRef .tc main_arg13) = x13)
    (hv73 : W (Proc.devRef .tc main_v73) = val_main_v73 (F := F) x0 x6 x7) :
    after (p7 (F := F)) W (Proc.devRef .tc main_v106) = val_main_v106 (F := F) x0 x6 x7 x12 x13 := by
  open_part
  after_results_simp
  simp only [h12, h13, hv73]
  rfl

/-- Part 7 writes no argument, none of the three row blocks and neither of the two gates before it. -/
theorem p7_keep (W : Valuation τ sig (Elt F)) :
    ∀ r ∈ (main_v50 :: main_v68 :: main_v73 :: main_v84 :: main_v95 :: argRefs : List (Ref sig .tc)), after (p7 (F := F)) W (Proc.devRef .tc r) = W (Proc.devRef .tc r) := by
  open_part
  intro r hr
  repeat (cases hr with | head => (after_results_simp <;> rfl) | tail _ hr => ?_)
  exact nomatch hr

/-! ## Part 8 -/

/-- The gated sum, from the three row blocks and their gates. -/
theorem p8_v117 (W : Valuation τ sig (Elt F)) (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S256x64, .f32⟩ : BufTy).Contents (Elt F)) (x5 : (⟨S64, .f32⟩ : BufTy).Contents (Elt F)) (x6 : (⟨S256x64, .f32⟩ : BufTy).Contents (Elt F)) (x7 : (⟨S64, .f32⟩ : BufTy).Contents (Elt F)) (x8 : (⟨S64x1, .f32⟩ : BufTy).Contents (Elt F)) (x9 : (⟨S1, .f32⟩ : BufTy).Contents (Elt F)) (x10 : (⟨S64x1, .f32⟩ : BufTy).Contents (Elt F)) (x11 : (⟨S1, .f32⟩ : BufTy).Contents (Elt F)) (x12 : (⟨S64x1, .f32⟩ : BufTy).Contents (Elt F)) (x13 : (⟨S1, .f32⟩ : BufTy).Contents (Elt F))
    (hv50 : W (Proc.devRef .tc main_v50) = val_main_v50 (F := F) x0 x1 x2 x3)
    (hv68 : W (Proc.devRef .tc main_v68) = val_main_v68 (F := F) x0 x1 x4 x5)
    (hv73 : W (Proc.devRef .tc main_v73) = val_main_v73 (F := F) x0 x6 x7)
    (hv84 : W (Proc.devRef .tc main_v84) = val_main_v84 (F := F) x0 x1 x2 x3 x8 x9)
    (hv95 : W (Proc.devRef .tc main_v95) = val_main_v95 (F := F) x0 x1 x4 x5 x10 x11)
    (hv106 : W (Proc.devRef .tc main_v106) = val_main_v106 (F := F) x0 x6 x7 x12 x13) :
    after (p8 (F := F)) W (Proc.devRef .tc main_v117) = val_main_v117 (F := F) x0 x1 x2 x3 x4 x5 x6 x7 x8 x9 x10 x11 x12 x13 := by
  open_part
  after_results_simp
  simp only [hv50, hv68, hv73, hv84, hv95, hv106]
  rfl

/-- Part 8 writes no argument. -/
theorem p8_keep (W : Valuation τ sig (Elt F)) :
    ∀ r ∈ (argRefs : List (Ref sig .tc)), after (p8 (F := F)) W (Proc.devRef .tc r) = W (Proc.devRef .tc r) := by
  open_part
  intro r hr
  repeat (cases hr with | head => (after_results_simp <;> rfl) | tail _ hr => ?_)
  exact nomatch hr

/-! ## Part 9 -/

/-- The result: the log-softmax of the gated sum. -/
theorem p9_v118 (W : Valuation τ sig (Elt F)) (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S256x64, .f32⟩ : BufTy).Contents (Elt F)) (x5 : (⟨S64, .f32⟩ : BufTy).Contents (Elt F)) (x6 : (⟨S256x64, .f32⟩ : BufTy).Contents (Elt F)) (x7 : (⟨S64, .f32⟩ : BufTy).Contents (Elt F)) (x8 : (⟨S64x1, .f32⟩ : BufTy).Contents (Elt F)) (x9 : (⟨S1, .f32⟩ : BufTy).Contents (Elt F)) (x10 : (⟨S64x1, .f32⟩ : BufTy).Contents (Elt F)) (x11 : (⟨S1, .f32⟩ : BufTy).Contents (Elt F)) (x12 : (⟨S64x1, .f32⟩ : BufTy).Contents (Elt F)) (x13 : (⟨S1, .f32⟩ : BufTy).Contents (Elt F))
    (hv117 : W (Proc.devRef .tc main_v117) = val_main_v117 (F := F) x0 x1 x2 x3 x4 x5 x6 x7 x8 x9 x10 x11 x12 x13) :
    after (p9 (F := F)) W (Proc.devRef .tc main_v118) = val_main_v118 (F := F) x0 x1 x2 x3 x4 x5 x6 x7 x8 x9 x10 x11 x12 x13 := by
  open_part
  after_results_simp
  simp only [hv117, Cert.Lib.TypedRef.ofBuf_toBuf]
  rfl

/-- Part 9 writes no argument. -/
theorem p9_keep (W : Valuation τ sig (Elt F)) :
    ∀ r ∈ (argRefs : List (Ref sig .tc)), after (p9 (F := F)) W (Proc.devRef .tc r) = W (Proc.devRef .tc r) := by
  open_part
  intro r hr
  repeat (cases hr with | head => (after_results_simp <;> rfl) | tail _ hr => ?_)
  exact nomatch hr

/-! ## The parts composed

From contents `V`: what holds of the contents `W` reached after each part, in terms of `V` at the argument buffers. -/

/-- After part 1: the arguments as in `V`; the two index columns and the edge weights at their stages. -/
structure After1 (V W : Valuation τ sig (Elt F)) : Prop where
  args : ∀ r ∈ (argRefs : List (Ref sig .tc)), W (Proc.devRef .tc r) = V (Proc.devRef .tc r)
  v3 : W (Proc.devRef .tc main_v3) = val_main_v3 (F := F) (V (Proc.devRef .tc main_arg1))
  v6 : W (Proc.devRef .tc main_v6) = val_main_v6 (F := F) (V (Proc.devRef .tc main_arg1))
  v31 : W (Proc.devRef .tc main_v31) = val_main_v31 (F := F) (V (Proc.devRef .tc main_arg1))

theorem after1 (V : Valuation τ sig (Elt F)) : After1 V (after (p1 (F := F)) V) :=
  ⟨p1_keep V, p1_v3 V, p1_v6 V, p1_v31 V⟩

/-- After part 2: also the high-pass row block. -/
structure After2 (V W : Valuation τ sig (Elt F)) : Prop where
  args : ∀ r ∈ (argRefs : List (Ref sig .tc)), W (Proc.devRef .tc r) = V (Proc.devRef .tc r)
  v3 : W (Proc.devRef .tc main_v3) = val_main_v3 (F := F) (V (Proc.devRef .tc main_arg1))
  v6 : W (Proc.devRef .tc main_v6) = val_main_v6 (F := F) (V (Proc.devRef .tc main_arg1))
  v31 : W (Proc.devRef .tc main_v31) = val_main_v31 (F := F) (V (Proc.devRef .tc main_arg1))
  v50 : W (Proc.devRef .tc main_v50) = val_main_v50 (F := F) (V (Proc.devRef .tc main_arg0)) (V (Proc.devRef .tc main_arg1)) (V (Proc.devRef .tc main_arg2)) (V (Proc.devRef .tc main_arg3))

theorem after2 {V W : Valuation τ sig (Elt F)} (h : After1 V W) : After2 V (after (p2 (F := F)) W) where
  args r hr := (p2_keep W r (.tail _ (.tail _ (.tail _ (hr))))).trans (h.args r hr)
  v3 := (p2_keep W main_v3 (.head _)).trans h.v3
  v6 := (p2_keep W main_v6 (.tail _ (.head _))).trans h.v6
  v31 := (p2_keep W main_v31 (.tail _ (.tail _ (.head _)))).trans h.v31
  v50 := p2_v50 W _ _ _ _ (h.args main_arg0 (.head _)) (h.args main_arg2 (.tail _ (.tail _ (.head _)))) (h.args main_arg3 (.tail _ (.tail _ (.tail _ (.head _))))) h.v3 h.v6 h.v31

/-- After part 3: the arguments, the high-pass and the low-pass row blocks. -/
structure After3 (V W : Valuation τ sig (Elt F)) : Prop where
  args : ∀ r ∈ (argRefs : List (Ref sig .tc)), W (Proc.devRef .tc r) = V (Proc.devRef .tc r)
  v50 : W (Proc.devRef .tc main_v50) = val_main_v50 (F := F) (V (Proc.devRef .tc main_arg0)) (V (Proc.devRef .tc main_arg1)) (V (Proc.devRef .tc main_arg2)) (V (Proc.devRef .tc main_arg3))
  v68 : W (Proc.devRef .tc main_v68) = val_main_v68 (F := F) (V (Proc.devRef .tc main_arg0)) (V (Proc.devRef .tc main_arg1)) (V (Proc.devRef .tc main_arg4)) (V (Proc.devRef .tc main_arg5))

theorem after3 {V W : Valuation τ sig (Elt F)} (h : After2 V W) : After3 V (after (p3 (F := F)) W) where
  args r hr := (p3_keep W r (.tail _ (hr))).trans (h.args r hr)
  v50 := (p3_keep W main_v50 (.head _)).trans h.v50
  v68 := p3_v68 W _ _ _ _ (h.args main_arg0 (.head _)) (h.args main_arg4 (.tail _ (.tail _ (.tail _ (.tail _ (.head _)))))) (h.args main_arg5 (.tail _ (.tail _ (.tail _ (.tail _ (.tail _ (.head _))))))) h.v3 h.v6 h.v31

/-- After part 4: the arguments and the three row blocks. -/
structure After4 (V W : Valuation τ sig (Elt F)) : Prop where
  args : ∀ r ∈ (argRefs : List (Ref sig .tc)), W (Proc.devRef .tc r) = V (Proc.devRef .tc r)
  v50 : W (Proc.devRef .tc main_v50) = val_main_v50 (F := F) (V (Proc.devRef .tc main_arg0)) (V (Proc.devRef .tc main_arg1)) (V (Proc.devRef .tc main_arg2)) (V (Proc.devRef .tc main_arg3))
  v68 : W (Proc.devRef .tc main_v68) = val_main_v68 (F := F) (V (Proc.devRef .tc main_arg0)) (V (Proc.devRef .tc main_arg1)) (V (Proc.devRef .tc main_arg4)) (V (Proc.devRef .tc main_arg5))
  v73 : W (Proc.devRef .tc main_v73) = val_main_v73 (F := F) (V (Proc.devRef .tc main_arg0)) (V (Proc.devRef .tc main_arg6)) (V (Proc.devRef .tc main_arg7))

theorem after4 {V W : Valuation τ sig (Elt F)} (h : After3 V W) : After4 V (after (p4 (F := F)) W) where
  args r hr := (p4_keep W r (.tail _ (.tail _ (hr)))).trans (h.args r hr)
  v50 := (p4_keep W main_v50 (.head _)).trans h.v50
  v68 := (p4_keep W main_v68 (.tail _ (.head _))).trans h.v68
  v73 := p4_v73 W _ _ _ (h.args main_arg0 (.head _)) (h.args main_arg6 (.tail _ (.tail _ (.tail _ (.tail _ (.tail _ (.tail _ (.head _)))))))) (h.args main_arg7 (.tail _ (.tail _ (.tail _ (.tail _ (.tail _ (.tail _ (.tail _ (.head _)))))))))

/-- After part 5: also the high-pass gate. -/
structure After5 (V W : Valuation τ sig (Elt F)) : Prop where
  args : ∀ r ∈ (argRefs : List (Ref sig .tc)), W (Proc.devRef .tc r) = V (Proc.devRef .tc r)
  v50 : W (Proc.devRef .tc main_v50) = val_main_v50 (F := F) (V (Proc.devRef .tc main_arg0)) (V (Proc.devRef .tc main_arg1)) (V (Proc.devRef .tc main_arg2)) (V (Proc.devRef .tc main_arg3))
  v68 : W (Proc.devRef .tc main_v68) = val_main_v68 (F := F) (V (Proc.devRef .tc main_arg0)) (V (Proc.devRef .tc main_arg1)) (V (Proc.devRef .tc main_arg4)) (V (Proc.devRef .tc main_arg5))
  v73 : W (Proc.devRef .tc main_v73) = val_main_v73 (F := F) (V (Proc.devRef .tc main_arg0)) (V (Proc.devRef .tc main_arg6)) (V (Proc.devRef .tc main_arg7))
  v84 : W (Proc.devRef .tc main_v84) = val_main_v84 (F := F) (V (Proc.devRef .tc main_arg0)) (V (Proc.devRef .tc main_arg1)) (V (Proc.devRef .tc main_arg2)) (V (Proc.devRef .tc main_arg3)) (V (Proc.devRef .tc main_arg8)) (V (Proc.devRef .tc main_arg9))

theorem after5 {V W : Valuation τ sig (Elt F)} (h : After4 V W) : After5 V (after (p5 (F := F)) W) where
  args r hr := (p5_keep W r (.tail _ (.tail _ (.tail _ (hr))))).trans (h.args r hr)
  v50 := (p5_keep W main_v50 (.head _)).trans h.v50
  v68 := (p5_keep W main_v68 (.tail _ (.head _))).trans h.v68
  v73 := (p5_keep W main_v73 (.tail _ (.tail _ (.head _)))).trans h.v73
  v84 := p5_v84 W _ _ _ _ _ _ (h.args main_arg8 (.tail _ (.tail _ (.tail _ (.tail _ (.tail _ (.tail _ (.tail _ (.tail _ (.head _)))))))))) (h.args main_arg9 (.tail _ (.tail _ (.tail _ (.tail _ (.tail _ (.tail _ (.tail _ (.tail _ (.tail _ (.head _))))))))))) h.v50

/-- After part 6: also the low-pass gate. -/
structure After6 (V W : Valuation τ sig (Elt F)) : Prop where
  args : ∀ r ∈ (argRefs : List (Ref sig .tc)), W (Proc.devRef .tc r) = V (Proc.devRef .tc r)
  v50 : W (Proc.devRef .tc main_v50) = val_main_v50 (F := F) (V (Proc.devRef .tc main_arg0)) (V (Proc.devRef .tc main_arg1)) (V (Proc.devRef .tc main_arg2)) (V (Proc.devRef .tc main_arg3))
  v68 : W (Proc.devRef .tc main_v68) = val_main_v68 (F := F) (V (Proc.devRef .tc main_arg0)) (V (Proc.devRef .tc main_arg1)) (V (Proc.devRef .tc main_arg4)) (V (Proc.devRef .tc main_arg5))
  v73 : W (Proc.devRef .tc main_v73) = val_main_v73 (F := F) (V (Proc.devRef .tc main_arg0)) (V (Proc.devRef .tc main_arg6)) (V (Proc.devRef .tc main_arg7))
  v84 : W (Proc.devRef .tc main_v84) = val_main_v84 (F := F) (V (Proc.devRef .tc main_arg0)) (V (Proc.devRef .tc main_arg1)) (V (Proc.devRef .tc main_arg2)) (V (Proc.devRef .tc main_arg3)) (V (Proc.devRef .tc main_arg8)) (V (Proc.devRef .tc main_arg9))
  v95 : W (Proc.devRef .tc main_v95) = val_main_v95 (F := F) (V (Proc.devRef .tc main_arg0)) (V (Proc.devRef .tc main_arg1)) (V (Proc.devRef .tc main_arg4)) (V (Proc.devRef .tc main_arg5)) (V (Proc.devRef .tc main_arg10)) (V (Proc.devRef .tc main_arg11))

theorem after6 {V W : Valuation τ sig (Elt F)} (h : After5 V W) : After6 V (after (p6 (F := F)) W) where
  args r hr := (p6_keep W r (.tail _ (.tail _ (.tail _ (.tail _ (hr)))))).trans (h.args r hr)
  v50 := (p6_keep W main_v50 (.head _)).trans h.v50
  v68 := (p6_keep W main_v68 (.tail _ (.head _))).trans h.v68
  v73 := (p6_keep W main_v73 (.tail _ (.tail _ (.head _)))).trans h.v73
  v84 := (p6_keep W main_v84 (.tail _ (.tail _ (.tail _ (.head _))))).trans h.v84
  v95 := p6_v95 W _ _ _ _ _ _ (h.args main_arg10 (.tail _ (.tail _ (.tail _ (.tail _ (.tail _ (.tail _ (.tail _ (.tail _ (.tail _ (.tail _ (.head _)))))))))))) (h.args main_arg11 (.tail _ (.tail _ (.tail _ (.tail _ (.tail _ (.tail _ (.tail _ (.tail _ (.tail _ (.tail _ (.tail _ (.head _))))))))))))) h.v68

/-- After part 7: the arguments, the three row blocks and the three gates. -/
structure After7 (V W : Valuation τ sig (Elt F)) : Prop where
  args : ∀ r ∈ (argRefs : List (Ref sig .tc)), W (Proc.devRef .tc r) = V (Proc.devRef .tc r)
  v50 : W (Proc.devRef .tc main_v50) = val_main_v50 (F := F) (V (Proc.devRef .tc main_arg0)) (V (Proc.devRef .tc main_arg1)) (V (Proc.devRef .tc main_arg2)) (V (Proc.devRef .tc main_arg3))
  v68 : W (Proc.devRef .tc main_v68) = val_main_v68 (F := F) (V (Proc.devRef .tc main_arg0)) (V (Proc.devRef .tc main_arg1)) (V (Proc.devRef .tc main_arg4)) (V (Proc.devRef .tc main_arg5))
  v73 : W (Proc.devRef .tc main_v73) = val_main_v73 (F := F) (V (Proc.devRef .tc main_arg0)) (V (Proc.devRef .tc main_arg6)) (V (Proc.devRef .tc main_arg7))
  v84 : W (Proc.devRef .tc main_v84) = val_main_v84 (F := F) (V (Proc.devRef .tc main_arg0)) (V (Proc.devRef .tc main_arg1)) (V (Proc.devRef .tc main_arg2)) (V (Proc.devRef .tc main_arg3)) (V (Proc.devRef .tc main_arg8)) (V (Proc.devRef .tc main_arg9))
  v95 : W (Proc.devRef .tc main_v95) = val_main_v95 (F := F) (V (Proc.devRef .tc main_arg0)) (V (Proc.devRef .tc main_arg1)) (V (Proc.devRef .tc main_arg4)) (V (Proc.devRef .tc main_arg5)) (V (Proc.devRef .tc main_arg10)) (V (Proc.devRef .tc main_arg11))
  v106 : W (Proc.devRef .tc main_v106) = val_main_v106 (F := F) (V (Proc.devRef .tc main_arg0)) (V (Proc.devRef .tc main_arg6)) (V (Proc.devRef .tc main_arg7)) (V (Proc.devRef .tc main_arg12)) (V (Proc.devRef .tc main_arg13))

theorem after7 {V W : Valuation τ sig (Elt F)} (h : After6 V W) : After7 V (after (p7 (F := F)) W) where
  args r hr := (p7_keep W r (.tail _ (.tail _ (.tail _ (.tail _ (.tail _ (hr))))))).trans (h.args r hr)
  v50 := (p7_keep W main_v50 (.head _)).trans h.v50
  v68 := (p7_keep W main_v68 (.tail _ (.head _))).trans h.v68
  v73 := (p7_keep W main_v73 (.tail _ (.tail _ (.head _)))).trans h.v73
  v84 := (p7_keep W main_v84 (.tail _ (.tail _ (.tail _ (.head _))))).trans h.v84
  v95 := (p7_keep W main_v95 (.tail _ (.tail _ (.tail _ (.tail _ (.head _)))))).trans h.v95
  v106 := p7_v106 W _ _ _ _ _ (h.args main_arg12 (.tail _ (.tail _ (.tail _ (.tail _ (.tail _ (.tail _ (.tail _ (.tail _ (.tail _ (.tail _ (.tail _ (.tail _ (.head _)))))))))))))) (h.args main_arg13 (.tail _ (.tail _ (.tail _ (.tail _ (.tail _ (.tail _ (.tail _ (.tail _ (.tail _ (.tail _ (.tail _ (.tail _ (.tail _ (.head _))))))))))))))) h.v73

/-- After part 8: the arguments and the gated sum. -/
structure After8 (V W : Valuation τ sig (Elt F)) : Prop where
  args : ∀ r ∈ (argRefs : List (Ref sig .tc)), W (Proc.devRef .tc r) = V (Proc.devRef .tc r)
  v117 : W (Proc.devRef .tc main_v117) = val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))

theorem after8 {V W : Valuation τ sig (Elt F)} (h : After7 V W) : After8 V (after (p8 (F := F)) W) where
  args r hr := (p8_keep W r (hr)).trans (h.args r hr)
  v117 := p8_v117 W _ _ _ _ _ _ _ _ _ _ _ _ _ _ h.v50 h.v68 h.v73 h.v84 h.v95 h.v106

/-- After part 9: the result at the last stage, the arguments as in `V`. -/
theorem after9 {V W : Valuation τ sig (Elt F)} (h : After8 V W) :
    after (p9 (F := F)) W (Proc.devRef .tc main_v118) = val_main_v118 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
      ∧ ∀ r ∈ (argRefs : List (Ref sig .tc)), after (p9 (F := F)) W (Proc.devRef .tc r) = V (Proc.devRef .tc r) :=
  ⟨p9_v118 W _ _ _ _ _ _ _ _ _ _ _ _ _ _ h.v117, fun r hr => (p9_keep W r hr).trans (h.args r hr)⟩

/-- THE WHOLE LINE from contents `V`: the result buffer at the last stage of `V`'s arguments, the arguments unchanged. -/
theorem after_ops_result (V : Valuation τ sig (Elt F)) :
    after (ops (F := F)) V (Proc.devRef .tc main_v118) = val_main_v118 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
      ∧ ∀ r ∈ (argRefs : List (Ref sig .tc)), after (ops (F := F)) V (Proc.devRef .tc r) = V (Proc.devRef .tc r) := by
  rw [after_ops]
  exact after9 (after8 (after7 (after6 (after5 (after4 (after3 (after2 (after1 V))))))))

/-! ## The run -/

/-- On every device, for any float values, from any memory with zero counters: every weakly fair execution of the
    reference terminates with the result buffer at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      have e := after_ops_result (F := F) (launchContents m c)
      ⟨(h c main_v118).trans e.1,
        (h c main_arg0).trans (e.2 main_arg0 (.head _)),
        (h c main_arg1).trans (e.2 main_arg1 (.tail _ (.head _))),
        (h c main_arg2).trans (e.2 main_arg2 (.tail _ (.tail _ (.head _)))),
        (h c main_arg3).trans (e.2 main_arg3 (.tail _ (.tail _ (.tail _ (.head _))))),
        (h c main_arg4).trans (e.2 main_arg4 (.tail _ (.tail _ (.tail _ (.tail _ (.head _)))))),
        (h c main_arg5).trans (e.2 main_arg5 (.tail _ (.tail _ (.tail _ (.tail _ (.tail _ (.head _))))))),
        (h c main_arg6).trans (e.2 main_arg6 (.tail _ (.tail _ (.tail _ (.tail _ (.tail _ (.tail _ (.head _)))))))),
        (h c main_arg7).trans (e.2 main_arg7 (.tail _ (.tail _ (.tail _ (.tail _ (.tail _ (.tail _ (.tail _ (.head _))))))))),
        (h c main_arg8).trans (e.2 main_arg8 (.tail _ (.tail _ (.tail _ (.tail _ (.tail _ (.tail _ (.tail _ (.tail _ (.head _)))))))))),
        (h c main_arg9).trans (e.2 main_arg9 (.tail _ (.tail _ (.tail _ (.tail _ (.tail _ (.tail _ (.tail _ (.tail _ (.tail _ (.head _))))))))))),
        (h c main_arg10).trans (e.2 main_arg10 (.tail _ (.tail _ (.tail _ (.tail _ (.tail _ (.tail _ (.tail _ (.tail _ (.tail _ (.tail _ (.head _)))))))))))),
        (h c main_arg11).trans (e.2 main_arg11 (.tail _ (.tail _ (.tail _ (.tail _ (.tail _ (.tail _ (.tail _ (.tail _ (.tail _ (.tail _ (.tail _ (.head _))))))))))))),
        (h c main_arg12).trans (e.2 main_arg12 (.tail _ (.tail _ (.tail _ (.tail _ (.tail _ (.tail _ (.tail _ (.tail _ (.tail _ (.tail _ (.tail _ (.tail _ (.head _)))))))))))))),
        (h c main_arg13).trans (e.2 main_arg13 (.tail _ (.tail _ (.tail _ (.tail _ (.tail _ (.tail _ (.tail _ (.tail _ (.tail _ (.tail _ (.tail _ (.tail _ (.tail _ (.head _)))))))))))))))⟩)
    (run_seq scopedRefs_eq scopedSems_eq defs main (fun _ => ops) main_eq (fun _ => ops_sub) m ρ)

end Cert.ReferenceIdeal.RunHand

end
-- ==== Proof.lean ====
/-
  Two programs for one graph-convolution layer with three filter branches, and the proof that, read over the
  extended reals, they compute the same array.

  Both start from node features x and an edge list. Three linear maps x·W + b give a high-pass, a low-pass and an
  identity branch. The graph propagation P — add self loops, count in-degrees, scale each edge by the inverse square
  roots of its endpoints' degrees, gather rows along the edges and add them up at the edges' targets — is applied to
  the first two; the branches become max (A − P A) 0, max (P C) 0 and max D 0. Each node then weighs its three rows
  by logistic gates of their inner products with three vectors, adds them, and takes a log-softmax over its 64
  features.

  One program does the linear maps and the per-node tail in two grid launches over blocks of 5000 nodes, with P done
  by host operations in between; the other is a single line of host operations. The proof reads both at every output
  index (node r, feature j):
    * the launches' arrays are whole-array functions, because each block written is the restriction of one function
      of the whole input arrays and the twenty blocks cover all rows (Proof/ProjValue.lean, Proof/CombineValue.lean);
    * the host operations between the launches are read back as they stand; P is kept as one opaque function of the
      edge list and a matrix, and is literally the same composite in both programs (Proof/HostGlue.lean,
      Proof/Bridge.lean);
    * the reference's stages are read row by row (Proof/RefRows.lean) and its run is followed piece by piece
      (Proof/RefRunHand.lean);
    * both meet in one row-level formula (Proof/RowSpec.lean). The only differences are orders of finite sums and the
      logistic function written as one operation or as 1 / (1 + exp (−z)); none needs the inputs to be finite, so the
      precondition is never opened.
  The idealization pass rewrote nothing, so the word-level program's idealization claim is trivial, and the three frame
  claims are the generated frames and the reference's run with its result dropped.
-/
import proofs.«110213_j52012053954566_1_alg».proof.Defs
import proofs.«110213_j52012053954566_1_alg».proof.Proof.Gen.Kernel
import proofs.«110213_j52012053954566_1_alg».proof.Proof.Gen.Kernel.Frame
import proofs.«110213_j52012053954566_1_alg».proof.Proof.Gen.KernelIdeal
import proofs.«110213_j52012053954566_1_alg».proof.Proof.Gen.KernelIdeal.Frame
import proofs.«110213_j52012053954566_1_alg».proof.Proof.Gen.ReferenceIdeal
import proofs.«110213_j52012053954566_1_alg».proof.Proof.Gen.Pre_finite_inputs
import proofs.«110213_j52012053954566_1_alg».proof.Proof.KernelRun
import proofs.«110213_j52012053954566_1_alg».proof.Proof.Bridge
import proofs.«110213_j52012053954566_1_alg».proof.Proof.RefRunHand
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, with the statement about the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The idealization pass rewrote no operation: nothing to preserve. -/
theorem preserves : Cert.preserves_Kernel_KernelIdeal := trivial

/-- From memories that agree on the arguments both idealized programs end with the same result array: the kernel's
    result is the last boundary's contents at the result's reference, which is the reference's last stage of the
    kernel's arguments; the reference's run ends at that stage of ITS arguments, which are the same arrays. -/
theorem algebraic : Cert.algebraic_KernelIdeal_ReferenceIdeal := by
  intro m ρ m' ρ' _ hagree
  refine ⟨fun c => Cert.KernelIdeal.Gen.W6 (F := Ideal) m ρ c (Proc.devRef .tc Cert.KernelIdeal.main_v68),
    Cert.KernelIdeal.KernelRun.run_named (F := Ideal) m ρ, ?_⟩
  refine (θ_run Cert.ReferenceIdeal.defs _ _).mono (fun _ h c => ⟨(h c).1.trans ?_, (h c).2⟩)
    (Cert.ReferenceIdeal.RunHand.run (F := Ideal) m' ρ')
  obtain ⟨h0, h1, h2, h3, h4, h5, h6, h7, h8, h9, h10, h11, h12, h13⟩ := hagree c
  rw [h0, h1, h2, h3, h4, h5, h6, h7, h8, h9, h10, h11, h12, h13]
  exact (Cert.Bridge.kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
